-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v7_0)) (v1 : (c : Dev Cert.KernelIdeal.nD) → Buf (Elt Ideal) ((c.tc : Thread Cert.KernelIdeal.nD Cert.KernelIdeal.τ).loc Cert.KernelIdeal.main_v7_1)) (v2 : (c : Dev Cert.KernelIdeal.nD) → Buf (Elt Ideal) ((c.tc : Thread Cert.KernelIdeal.nD Cert.KernelIdeal.τ).loc Cert.KernelIdeal.main_v7_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7_0) = v0 c
          ∧ r.2.mem ((c.tc : Thread Cert.KernelIdeal.nD Cert.KernelIdeal.τ).loc Cert.KernelIdeal.main_v7_1) = v1 c
          ∧ r.2.mem ((c.tc : Thread Cert.KernelIdeal.nD Cert.KernelIdeal.τ).loc Cert.KernelIdeal.main_v7_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_v57) = v1 c
          ∧ r.2.mem ((c.tc : Thread Cert.ReferenceIdeal.nD Cert.ReferenceIdeal.τ).loc Cert.ReferenceIdeal.main_v58) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x256 : Shape := ⟨2, ![131072, 256]⟩
abbrev S256 : Shape := ⟨1, ![256]⟩
abbrev S512x256 : Shape := ⟨2, ![512, 256]⟩
abbrev S_ : Shape := ⟨0, ![]⟩
abbrev S131072 : Shape := ⟨1, ![131072]⟩
abbrev S131072x1 : Shape := ⟨2, ![131072, 1]⟩
abbrev S1x256 : Shape := ⟨2, ![1, 256]⟩
abbrev S512 : Shape := ⟨1, ![512]⟩
abbrev S1x512 : Shape := ⟨2, ![1, 512]⟩
abbrev S131072x512 : Shape := ⟨2, ![131072, 512]⟩
abbrev S256x512 : Shape := ⟨2, ![256, 512]⟩

class Facts : Prop where
  bcast_S_S131072x256 : S_.BroadcastsInDim S131072x256 (![] : Fin 0 → Fin S131072x256.rank)
  reducesTo_S131072x256_S_d0_1 : S131072x256.ReducesTo [0, 1] S_
  h_S_ : 0 < S_.numel
  bcast_S_S256 : S_.BroadcastsInDim S256 (![] : Fin 0 → Fin S256.rank)
  reducesTo_S256_S_d0 : S256.ReducesTo [0] S_
  bcast_S_S512x256 : S_.BroadcastsInDim S512x256 (![] : Fin 0 → Fin S512x256.rank)
  reducesTo_S512x256_S_d0_1 : S512x256.ReducesTo [0, 1] S_
  reducesTo_S131072x256_S131072_d1 : S131072x256.ReducesTo [1] S131072
  bcast_S131072_S131072x1_0 : S131072.BroadcastsInDim S131072x1 (![0] : Fin 1 → Fin S131072x1.rank)
  bcast_S_S131072x1 : S_.BroadcastsInDim S131072x1 (![] : Fin 0 → Fin S131072x1.rank)
  bcast_S131072x1_S131072x256_0_1 : S131072x1.BroadcastsInDim S131072x256 (![0, 1] : Fin 2 → Fin S131072x256.rank)
  bcast_S256_S1x256_1 : S256.BroadcastsInDim S1x256 (![1] : Fin 1 → Fin S1x256.rank)
  bcast_S1x256_S131072x256_0_1 : S1x256.BroadcastsInDim S131072x256 (![0, 1] : Fin 2 → Fin S131072x256.rank)
  reducesTo_S512x256_S512_d1 : S512x256.ReducesTo [1] S512
  bcast_S512_S1x512_1 : S512.BroadcastsInDim S1x512 (![1] : Fin 1 → Fin S1x512.rank)
  bcast_S131072x1_S131072x512_0_1 : S131072x1.BroadcastsInDim S131072x512 (![0, 1] : Fin 2 → Fin S131072x512.rank)
  bcast_S1x512_S131072x512_0_1 : S1x512.BroadcastsInDim S131072x512 (![0, 1] : Fin 2 → Fin S131072x512.rank)
  transposes_S512x256_S256x512_1_0 : S512x256.Transposes [1, 0] S256x512
  bcast_S_S131072x512 : S_.BroadcastsInDim S131072x512 (![] : Fin 0 → Fin S131072x512.rank)
  reducesTo_S131072x512_S131072_d1 : S131072x512.ReducesTo [1] S131072
  reducesTo_S131072x1_S_d0_1 : S131072x1.ReducesTo [0, 1] S_
  dot_S131072x256_S256x512_S131072x512_1_0_0_1_n_n_wf : DotDims.WF S131072x256 S256x512 S131072x512 [1] [0] [0] [1] [] []

variable [Facts]

def dot_S131072x256_S256x512_S131072x512_1_0_0_1_n_n : DotDims S131072x256 S256x512 S131072x512 where
  lhsContracting := [1]
  rhsContracting := [0]
  lhsNonContracting := [0]
  rhsNonContracting := [1]
  lhsBatch := []
  rhsBatch := []
  wf := dot_S131072x256_S256x512_S131072x512_1_0_0_1_n_n_wf
def fn_part3 {F : FTy → Type} [FloatOps F] (main_v18 : IVec S_ 1) (main_v51 : FVec F S131072x512 .f32) (main_v55 : FVec F S131072x512 .f32) : IVec S_ 1 :=
  let main_v56 : FVec F S131072x512 .f32 := subf main_v51 main_v55
  let main_v57 : FVec F S131072x512 .f32 := Host.sqrt main_v56
  let main_cst_14 : FVec F S_ .f32 := constant S_ .f32 0x00000000#32
  let main_v58 : FVec F S131072 .f32 := (fun x v => Host.reduceAdd x v reducesTo_S131072x512_S131072_d1 h_S_) main_v57 main_cst_14
  let main_v59 : FVec F S131072x1 .f32 := broadcastInDim S131072x1 ![0] bcast_S131072_S131072x1_0 main_v58
  let main_cst_15 : FVec F S_ .f32 := constant S_ .f32 0x44000000#32
  let main_v60 : FVec F S131072x1 .f32 := broadcastInDim S131072x1 ![] bcast_S_S131072x1 main_cst_15
  let main_v61 : FVec F S131072x1 .f32 := Host.divf main_v59 main_v60
  let main_cst_16 : FVec F S_ .f32 := constant S_ .f32 0x00000000#32
  let main_v62 : FVec F S131072x1 .f32 := broadcastInDim S131072x1 ![] bcast_S_S131072x1 main_cst_16
  let main_v63 : IVec S131072x1 1 := cmpf .ogt main_v61 main_v62
  let main_c_17 : IVec S_ 1 := constantI S_ 1 1#1
  let main_v64 : IVec S_ 1 := (fun x v => Host.reduce IntOp.andi x v reducesTo_S131072x1_S_d0_1 h_S_) main_v63 main_c_17
  let main_v65 : IVec S_ 1 := andi main_v18 main_v64
  main_v65

def fn_part2 {F : FTy → Type} [FloatOps F] (main_arg1 : FVec F S256 .f32) (main_arg2 : FVec F S256 .f32) (main_arg3 : FVec F S512x256 .f32) (main_v18 : IVec S_ 1) (main_v32 : FVec F S131072x256 .f32) (main_v34 : FVec F S131072x1 .f32) : IVec S_ 1 :=
  let main_v35 : FVec F S131072x256 .f32 := broadcastInDim S131072x256 ![0, 1] bcast_S131072x1_S131072x256_0_1 main_v34
  let main_v36 : FVec F S131072x256 .f32 := Host.divf main_v32 main_v35
  let main_v37 : FVec F S1x256 .f32 := broadcastInDim S1x256 ![1] bcast_S256_S1x256_1 main_arg1
  let main_v38 : FVec F S131072x256 .f32 := broadcastInDim S131072x256 ![0, 1] bcast_S1x256_S131072x256_0_1 main_v37
  let main_v39 : FVec F S131072x256 .f32 := mulf main_v36 main_v38
  let main_v40 : FVec F S1x256 .f32 := broadcastInDim S1x256 ![1] bcast_S256_S1x256_1 main_arg2
  let main_v41 : FVec F S131072x256 .f32 := broadcastInDim S131072x256 ![0, 1] bcast_S1x256_S131072x256_0_1 main_v40
  let main_v42 : FVec F S131072x256 .f32 := addf main_v39 main_v41
  let main_v43 : FVec F S131072x256 .f32 := mulf main_v42 main_v42
  let main_cst_11 : FVec F S_ .f32 := constant S_ .f32 0x00000000#32
  let main_v44 : FVec F S131072 .f32 := (fun x v => Host.reduceAdd x v reducesTo_S131072x256_S131072_d1 h_S_) main_v43 main_cst_11
  let main_v45 : FVec F S131072x1 .f32 := broadcastInDim S131072x1 ![0] bcast_S131072_S131072x1_0 main_v44
  let main_v46 : FVec F S512x256 .f32 := mulf main_arg3 main_arg3
  let main_cst_12 : FVec F S_ .f32 := constant S_ .f32 0x00000000#32
  let main_v47 : FVec F S512 .f32 := (fun x v => Host.reduceAdd x v reducesTo_S512x256_S512_d1 h_S_) main_v46 main_cst_12
  let main_v48 : FVec F S1x512 .f32 := broadcastInDim S1x512 ![1] bcast_S512_S1x512_1 main_v47
  let main_v49 : FVec F S131072x512 .f32 := broadcastInDim S131072x512 ![0, 1] bcast_S131072x1_S131072x512_0_1 main_v45
  let main_v50 : FVec F S131072x512 .f32 := broadcastInDim S131072x512 ![0, 1] bcast_S1x512_S131072x512_0_1 main_v48
  let main_v51 : FVec F S131072x512 .f32 := addf main_v49 main_v50
  let main_v52 : FVec F S256x512 .f32 := (transpose S256x512 [1, 0] · transposes_S512x256_S256x512_1_0) main_arg3
  let main_v53 : FVec F S131072x512 .f32 := (fun l r => Host.dotGeneral dot_S131072x256_S256x512_S131072x512_1_0_0_1_n_n none l r) main_v42 main_v52
  let main_cst_13 : FVec F S_ .f32 := constant S_ .f32 0x40000000#32
  let main_v54 : FVec F S131072x512 .f32 := broadcastInDim S131072x512 ![] bcast_S_S131072x512 main_cst_13
  let main_v55 : FVec F S131072x512 .f32 := mulf main_v54 main_v53
  fn_part3 (F := F) main_v18 main_v51 main_v55

def fn_part1 {F : FTy → Type} [FloatOps F] (main_arg0 : FVec F S131072x256 .f32) (main_arg1 : FVec F S256 .f32) (main_arg2 : FVec F S256 .f32) (main_arg3 : FVec F S512x256 .f32) (main_v13 : IVec S_ 1) (main_v16 : IVec S512x256 1) : IVec S_ 1 :=
  let main_c_5 : IVec S_ 1 := constantI S_ 1 1#1
  let main_v17 : IVec S_ 1 := (fun x v => Host.reduce IntOp.andi x v reducesTo_S512x256_S_d0_1 h_S_) main_v16 main_c_5
  let main_v18 : IVec S_ 1 := andi main_v13 main_v17
  let main_cst_6 : FVec F S_ .f32 := constant S_ .f32 0x00000000#32
  let main_v19 : FVec F S131072 .f32 := (fun x v => Host.reduceAdd x v reducesTo_S131072x256_S131072_d1 h_S_) main_arg0 main_cst_6
  let main_v20 : FVec F S131072x1 .f32 := broadcastInDim S131072x1 ![0] bcast_S131072_S131072x1_0 main_v19
  let main_cst_7 : FVec F S_ .f32 := constant S_ .f32 0x43800000#32
  let main_v21 : FVec F S131072x1 .f32 := broadcastInDim S131072x1 ![] bcast_S_S131072x1 main_cst_7
  let main_v22 : FVec F S131072x1 .f32 := Host.divf main_v20 main_v21
  let main_v23 : FVec F S131072x256 .f32 := broadcastInDim S131072x256 ![0, 1] bcast_S131072x1_S131072x256_0_1 main_v22
  let main_v24 : FVec F S131072x256 .f32 := subf main_arg0 main_v23
  let main_v25 : FVec F S131072x256 .f32 := mulf main_v24 main_v24
  let main_cst_8 : FVec F S_ .f32 := constant S_ .f32 0x00000000#32
  let main_v26 : FVec F S131072 .f32 := (fun x v => Host.reduceAdd x v reducesTo_S131072x256_S131072_d1 h_S_) main_v25 main_cst_8
  let main_v27 : FVec F S131072x1 .f32 := broadcastInDim S131072x1 ![0] bcast_S131072_S131072x1_0 main_v26
  let main_cst_9 : FVec F S_ .f32 := constant S_ .f32 0x43800000#32
  let main_v28 : FVec F S131072x1 .f32 := broadcastInDim S131072x1 ![] bcast_S_S131072x1 main_cst_9
  let main_v29 : FVec F S131072x1 .f32 := Host.divf main_v27 main_v28
  let main_v30 : FVec F S131072x1 .f32 := Host.sqrt main_v29
  let main_v31 : FVec F S131072x256 .f32 := broadcastInDim S131072x256 ![0, 1] bcast_S131072x1_S131072x256_0_1 main_v22
  let main_v32 : FVec F S131072x256 .f32 := subf main_arg0 main_v31
  let main_cst_10 : FVec F S_ .f32 := constant S_ .f32 0x3727C5AC#32
  let main_v33 : FVec F S131072x1 .f32 := broadcastInDim S131072x1 ![] bcast_S_S131072x1 main_cst_10
  let main_v34 : FVec F S131072x1 .f32 := addf main_v30 main_v33
  fn_part2 (F := F) main_arg1 main_arg2 main_arg3 main_v18 main_v32 main_v34

def fn {F : FTy → Type} [FloatOps F] (main_arg0 : FVec F S131072x256 .f32) (main_arg1 : FVec F S256 .f32) (main_arg2 : FVec F S256 .f32) (main_arg3 : FVec F S512x256 .f32) : IVec S_ 1 :=
  let main_v0 : FVec F S131072x256 .f32 := Host.absf main_arg0
  let main_cst : FVec F S_ .f32 := constant S_ .f32 0x7F800000#32
  let main_v1 : FVec F S131072x256 .f32 := broadcastInDim S131072x256 ![] bcast_S_S131072x256 main_cst
  let main_v2 : IVec S131072x256 1 := cmpf .olt main_v0 main_v1
  let main_c : IVec S_ 1 := constantI S_ 1 1#1
  let main_v3 : IVec S_ 1 := (fun x v => Host.reduce IntOp.andi x v reducesTo_S131072x256_S_d0_1 h_S_) main_v2 main_c
  let main_v4 : FVec F S256 .f32 := Host.absf main_arg1
  let main_cst_0 : FVec F S_ .f32 := constant S_ .f32 0x7F800000#32
  let main_v5 : FVec F S256 .f32 := broadcastInDim S256 ![] bcast_S_S256 main_cst_0
  let main_v6 : IVec S256 1 := cmpf .olt main_v4 main_v5
  let main_c_1 : IVec S_ 1 := constantI S_ 1 1#1
  let main_v7 : IVec S_ 1 := (fun x v => Host.reduce IntOp.andi x v reducesTo_S256_S_d0 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S512x256 .f32 := Host.absf main_arg3
  let main_cst_4 : FVec F S_ .f32 := constant S_ .f32 0x7F800000#32
  let main_v15 : FVec F S512x256 .f32 := broadcastInDim S512x256 ![] bcast_S_S512x256 main_cst_4
  let main_v16 : IVec S512x256 1 := cmpf .olt main_v14 main_v15
  fn_part1 (F := F) main_arg0 main_arg1 main_arg2 main_arg3 main_v13 main_v16
-- ==== Kernel.lean ====
abbrev S131072x256 : Shape := ⟨2, ![131072, 256]⟩
abbrev S256 : Shape := ⟨1, ![256]⟩
abbrev S512x256 : Shape := ⟨2, ![512, 256]⟩
abbrev S1x256 : Shape := ⟨2, ![1, 256]⟩
abbrev S_ : Shape := ⟨0, ![]⟩
abbrev S512 : Shape := ⟨1, ![512]⟩
abbrev S512x1 : Shape := ⟨2, ![512, 1]⟩
abbrev S1x512 : Shape := ⟨2, ![1, 512]⟩
abbrev S256x512 : Shape := ⟨2, ![256, 512]⟩
abbrev S131072x512 : Shape := ⟨2, ![131072, 512]⟩
abbrev S2048x256 : Shape := ⟨2, ![2048, 256]⟩
abbrev S2048x512 : Shape := ⟨2, ![2048, 512]⟩
abbrev S2048 : Shape := ⟨1, ![2048]⟩
abbrev S2048x1 : Shape := ⟨2, ![2048, 1]⟩

abbrev nBuf : Space → Nat
  | .hbm => 15
  | .vmem => 13
  | .smem => 0
  | _ => 0

abbrev bufTy : (tb : Table) → Fin (tcTables nBuf tb) → BufTy
  | .hbm, ⟨0, _⟩ => ⟨S131072x256, .f32⟩
  | .hbm, ⟨1, _⟩ => ⟨S256, .f32⟩
  | .hbm, ⟨2, _⟩ => ⟨S256, .f32⟩
  | .hbm, ⟨3, _⟩ => ⟨S512x256, .f32⟩
  | .hbm, ⟨4, _⟩ => ⟨S1x256, .f32⟩
  | .hbm, ⟨5, _⟩ => ⟨S1x256, .f32⟩
  | .hbm, ⟨6, _⟩ => ⟨S512x256, .f32⟩
  | .hbm, ⟨7, _⟩ => ⟨S_, .f32⟩
  | .hbm, ⟨8, _⟩ => ⟨S512, .f32⟩
  | .hbm, ⟨9, _⟩ => ⟨S512x1, .f32⟩
  | .hbm, ⟨10, _⟩ => ⟨S1x512, .f32⟩
  | .hbm, ⟨11, _⟩ => ⟨S256x512, .f32⟩
  | .hbm, ⟨12, _⟩ => ⟨S131072x512, .f32⟩
  | .hbm, ⟨13, _⟩ => ⟨S131072x512, .f32⟩
  | .hbm, ⟨14, _⟩ => ⟨S131072x256, .f32⟩
  | .local _ .vmem, ⟨0, _⟩ => ⟨S2048x256, .f32⟩
  | .local _ .vmem, ⟨1, _⟩ => ⟨S2048x256, .f32⟩
  | .local _ .vmem, ⟨2, _⟩ => ⟨S1x256, .f32⟩
  | .local _ .vmem, ⟨3, _⟩ => ⟨S1x256, .f32⟩
  | .local _ .vmem, ⟨4, _⟩ => ⟨S512x256, .f32⟩
  | .local _ .vmem, ⟨5, _⟩ => ⟨S256x512, .f32⟩
  | .local _ .vmem, ⟨6, _⟩ => ⟨S1x512, .f32⟩
  | .local _ .vmem, ⟨7, _⟩ => ⟨S2048x512, .f32⟩
  | .local _ .vmem, ⟨8, _⟩ => ⟨S2048x512, .f32⟩
  | .local _ .vmem, ⟨9, _⟩ => ⟨S2048x512, .f32⟩
  | .local _ .vmem, ⟨10, _⟩ => ⟨S2048x512, .f32⟩
  | .local _ .vmem, ⟨11, _⟩ => ⟨S2048x256, .f32⟩
  | .local _ .vmem, ⟨12, _⟩ => ⟨S2048x256, .f32⟩
  | _, _ => ⟨S131072x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev main_v7_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2048x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2048x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  shapeCasts_S256_S1x256 : S256.ShapeCasts S1x256
  reducesTo_S512x256_S512_d1 : S512x256.ReducesTo [1] S512
  h_S_ : 0 < S_.numel
  bcast_S512_S512x1_0 : S512.BroadcastsInDim S512x1 (![0] : Fin 1 → Fin S512x1.rank)
  shapeCasts_S512x1_S1x512 : S512x1.ShapeCasts S1x512
  transposes_S512x256_S256x512_1_0 : S512x256.Transposes [1, 0] S256x512
  inb_S2048x256_S2048x256_0_0 : ∀ a, (![0, 0] : Fin 2 → Nat) a + S2048x256.size a ≤ S2048x256.size a
  h_S2048x256 : 0 < S2048x256.numel
  reduces_S2048x256_S2048 : S2048x256.Reduces [1] S2048
  shapeCasts_S2048_S2048x1 : S2048.ShapeCasts S2048x1
  broadcasts_S2048x1_S2048x256 : S2048x1.Broadcasts S2048x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  inb_S1x512_S1x512_0_0 : ∀ a, (![0, 0] : Fin 2 → Nat) a + S1x512.size a ≤ S1x512.size a
  h_S1x512 : 0 < S1x512.numel
  shapeCasts_S1x512_S1x512 : S1x512.ShapeCasts S1x512
  inb_S256x512_S256x512_0_0 : ∀ a, (![0, 0] : Fin 2 → Nat) a + S256x512.size a ≤ S256x512.size a
  h_S256x512 : 0 < S256x512.numel
  shapeCasts_S256x512_S256x512 : S256x512.ShapeCasts S256x512
  broadcasts_S2048x1_S2048x512 : S2048x1.Broadcasts S2048x512
  broadcasts_S1x512_S2048x512 : S1x512.Broadcasts S2048x512
  reduces_S2048x512_S2048 : S2048x512.Reduces [1] S2048
  inb_S512x256_S512x256_0_0 : ∀ a, (![0, 0] : Fin 2 → Nat) a + S512x256.size a ≤ S512x256.size a
  h_S512x256 : 0 < S512x256.numel
  bitsLt_bf16_f32 : FTy.bits .bf16 < FTy.bits .f32
  inb_S2048x512_S2048x512_0_0 : ∀ a, (![0, 0] : Fin 2 → Nat) a + S2048x512.size a ≤ S2048x512.size a
  h_S2048x512 : 0 < S2048x512.numel
  dot_S2048x256_S256x512_S2048x512_1_0_0_1_n_n_wf : DotDims.WF S2048x256 S256x512 S2048x512 [1] [0] [0] [1] [] []
  dot_S2048x512_S512x256_S2048x256_1_0_0_1_n_n_wf : DotDims.WF S2048x512 S512x256 S2048x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S131072x256.size a
  hwx0_0 : ∀ i : grid0.Coords, EltTy.bits .f32 = 32 ∨ (Rect.block (s := S131072x256) S2048x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x256.size a ≤ S1x256.size a
  hwx0_1 : ∀ i : grid0.Coords, EltTy.bits .f32 = 32 ∨ (Rect.block (s := S1x256) S1x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x256.size a ≤ S512x256.size a
  hwx0_3 : ∀ i : grid0.Coords, EltTy.bits .f32 = 32 ∨ (Rect.block (s := S512x256) S512x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x512.size a ≤ S256x512.size a
  hwx0_4 : ∀ i : grid0.Coords, EltTy.bits .f32 = 32 ∨ (Rect.block (s := S256x512) S256x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x512.size a
  hwx0_5 : ∀ i : grid0.Coords, EltTy.bits .f32 = 32 ∨ (Rect.block (s := S1x512) S1x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2048x512.size a ≤ S131072x512.size a
  hwx0_6 : ∀ i : grid0.Coords, EltTy.bits .f32 = 32 ∨ (Rect.block (s := S131072x512) S2048x512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2048x512.size a ≤ S131072x512.size a
  hwx0_7 : ∀ i : grid0.Coords, EltTy.bits .f32 = 32 ∨ (Rect.block (s := S131072x512) S2048x512.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2048x256.size a ≤ S131072x256.size a
  hwx0_8 : ∀ i : grid0.Coords, EltTy.bits .f32 = 32 ∨ (Rect.block (s := S131072x256) S2048x256.size (cc0_transform_8 i) (hinb0_8 i)).WholeWords (EltTy.packing .f32)

variable [Facts₀]

def dot_S2048x256_S256x512_S2048x512_1_0_0_1_n_n : DotDims S2048x256 S256x512 S2048x512 where
  lhsContracting := [1]
  rhsContracting := [0]
  lhsNonContracting := [0]
  rhsNonContracting := [1]
  lhsBatch := []
  rhsBatch := []
  wf := dot_S2048x256_S256x512_S2048x512_1_0_0_1_n_n_wf
def dot_S2048x512_S512x256_S2048x256_1_0_0_1_n_n : DotDims S2048x512 S512x256 S2048x256 where
  lhsContracting := [1]
  rhsContracting := [0]
  lhsNonContracting := [0]
  rhsNonContracting := [1]
  lhsBatch := []
  rhsBatch := []
  wf := dot_S2048x512_S512x256_S2048x256_1_0_0_1_n_n_wf

abbrev win0_0 : Pipeline.Window sig grid0 :=
  Pipeline.Window.ofSpec (Memref.whole main_arg0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S256x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7_0) S2048x512.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v7_1) S2048x512.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v7_2) S2048x256.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S131072x256 : Shape := ⟨2, ![131072, 256]⟩
abbrev S256 : Shape := ⟨1, ![256]⟩
abbrev S512x256 : Shape := ⟨2, ![512, 256]⟩
abbrev S_ : Shape := ⟨0, ![]⟩
abbrev S131072 : Shape := ⟨1, ![131072]⟩
abbrev S131072x1 : Shape := ⟨2, ![131072, 1]⟩
abbrev S1x256 : Shape := ⟨2, ![1, 256]⟩
abbrev S512 : Shape := ⟨1, ![512]⟩
abbrev S1x512 : Shape := ⟨2, ![1, 512]⟩
abbrev S131072x512 : Shape := ⟨2, ![131072, 512]⟩
abbrev S256x512 : Shape := ⟨2, ![256, 512]⟩

abbrev nBuf : Space → Nat
  | .hbm => 77
  | .vmem => 0
  | .smem => 0
  | _ => 0

abbrev bufTy : (tb : Table) → Fin (tcTables nBuf tb) → BufTy
  | .hbm, ⟨0, _⟩ => ⟨S131072x256, .f32⟩
  | .hbm, ⟨1, _⟩ => ⟨S256, .f32⟩
  | .hbm, ⟨2, _⟩ => ⟨S256, .f32⟩
  | .hbm, ⟨3, _⟩ => ⟨S512x256, .f32⟩
  | .hbm, ⟨4, _⟩ => ⟨S_, .f32⟩
  | .hbm, ⟨5, _⟩ => ⟨S131072, .f32⟩
  | .hbm, ⟨6, _⟩ => ⟨S131072x1, .f32⟩
  | .hbm, ⟨7, _⟩ => ⟨S_, .f32⟩
  | .hbm, ⟨8, _⟩ => ⟨S131072x1, .f32⟩
  | .hbm, ⟨9, _⟩ => ⟨S131072x1, .f32⟩
  | .hbm, ⟨10, _⟩ => ⟨S131072x256, .f32⟩
  | .hbm, ⟨11, _⟩ => ⟨S131072x256, .f32⟩
  | .hbm, ⟨12, _⟩ => ⟨S131072x256, .f32⟩
  | .hbm, ⟨13, _⟩ => ⟨S_, .f32⟩
  | .hbm, ⟨14, _⟩ => ⟨S131072, .f32⟩
  | .hbm, ⟨15, _⟩ => ⟨S131072x1, .f32⟩
  | .hbm, ⟨16, _⟩ => ⟨S_, .f32⟩
  | .hbm, ⟨17, _⟩ => ⟨S131072x1, .f32⟩
  | .hbm, ⟨18, _⟩ => ⟨S131072x1, .f32⟩
  | .hbm, ⟨19, _⟩ => ⟨S131072x1, .f32⟩
  | .hbm, ⟨20, _⟩ => ⟨S131072x256, .f32⟩
  | .hbm, ⟨21, _⟩ => ⟨S131072x256, .f32⟩
  | .hbm, ⟨22, _⟩ => ⟨S_, .f32⟩
  | .hbm, ⟨23, _⟩ => ⟨S131072x1, .f32⟩
  | .hbm, ⟨24, _⟩ => ⟨S131072x1, .f32⟩
  | .hbm, ⟨25, _⟩ => ⟨S131072x256, .f32⟩
  | .hbm, ⟨26, _⟩ => ⟨S131072x256, .f32⟩
  | .hbm, ⟨27, _⟩ => ⟨S1x256, .f32⟩
  | .hbm, ⟨28, _⟩ => ⟨S131072x256, .f32⟩
  | .hbm, ⟨29, _⟩ => ⟨S131072x256, .f32⟩
  | .hbm, ⟨30, _⟩ => ⟨S1x256, .f32⟩
  | .hbm, ⟨31, _⟩ => ⟨S131072x256, .f32⟩
  | .hbm, ⟨32, _⟩ => ⟨S131072x256, .f32⟩
  | .hbm, ⟨33, _⟩ => ⟨S131072x256, .f32⟩
  | .hbm, ⟨34, _⟩ => ⟨S_, .f32⟩
  | .hbm, ⟨35, _⟩ => ⟨S131072, .f32⟩
  | .hbm, ⟨36, _⟩ => ⟨S131072x1, .f32⟩
  | .hbm, ⟨37, _⟩ => ⟨S512x256, .f32⟩
  | .hbm, ⟨38, _⟩ => ⟨S_, .f32⟩
  | .hbm, ⟨39, _⟩ => ⟨S512, .f32⟩
  | .hbm, ⟨40, _⟩ => ⟨S1x512, .f32⟩
  | .hbm, ⟨41, _⟩ => ⟨S131072x512, .f32⟩
  | .hbm, ⟨42, _⟩ => ⟨S131072x512, .f32⟩
  | .hbm, ⟨43, _⟩ => ⟨S131072x512, .f32⟩
  | .hbm, ⟨44, _⟩ => ⟨S256x512, .f32⟩
  | .hbm, ⟨45, _⟩ => ⟨S131072x512, .f32⟩
  | .hbm, ⟨46, _⟩ => ⟨S_, .f32⟩
  | .hbm, ⟨47, _⟩ => ⟨S131072x512, .f32⟩
  | .hbm, ⟨48, _⟩ => ⟨S131072x512, .f32⟩
  | .hbm, ⟨49, _⟩ => ⟨S131072x512, .f32⟩
  | .hbm, ⟨50, _⟩ => ⟨S131072x512, .f32⟩
  | .hbm, ⟨51, _⟩ => ⟨S_, .f32⟩
  | .hbm, ⟨52, _⟩ => ⟨S131072, .f32⟩
  | .hbm, ⟨53, _⟩ => ⟨S131072x1, .f32⟩
  | .hbm, ⟨54, _⟩ => ⟨S_, .f32⟩
  | .hbm, ⟨55, _⟩ => ⟨S131072x1, .f32⟩
  | .hbm, ⟨56, _⟩ => ⟨S131072x1, .f32⟩
  | .hbm, ⟨57, _⟩ => ⟨S131072x512, .f32⟩
  | .hbm, ⟨58, _⟩ => ⟨S131072x512, .f32⟩
  | .hbm, ⟨59, _⟩ => ⟨S_, .f32⟩
  | .hbm, ⟨60, _⟩ => ⟨S131072x512, .f32⟩
  | .hbm, ⟨61, _⟩ => ⟨S131072x512, .f32⟩
  | .hbm, ⟨62, _⟩ => ⟨S_, .f32⟩
  | .hbm, ⟨63, _⟩ => ⟨S131072, .f32⟩
  | .hbm, ⟨64, _⟩ => ⟨S_, .f32⟩
  | .hbm, ⟨65, _⟩ => ⟨S131072, .f32⟩
  | .hbm, ⟨66, _⟩ => ⟨S131072, .f32⟩
  | .hbm, ⟨67, _⟩ => ⟨S131072x1, .f32⟩
  | .hbm, ⟨68, _⟩ => ⟨S131072x512, .f32⟩
  | .hbm, ⟨69, _⟩ => ⟨S131072x512, .f32⟩
  | .hbm, ⟨70, _⟩ => ⟨S131072x512, .f32⟩
  | .hbm, ⟨71, _⟩ => ⟨S_, .f32⟩
  | .hbm, ⟨72, _⟩ => ⟨S131072, .f32⟩
  | .hbm, ⟨73, _⟩ => ⟨S131072x1, .f32⟩
  | .hbm, ⟨74, _⟩ => ⟨S131072x512, .f32⟩
  | .hbm, ⟨75, _⟩ => ⟨S131072x512, .f32⟩
  | .hbm, ⟨76, _⟩ => ⟨S131072x256, .f32⟩
  | _, _ => ⟨S131072x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_4 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_5 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_6 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_7 : Ref sig .tc := ⟨.hbm, 51, rfl⟩
abbrev main_v39 : Ref sig .tc := ⟨.hbm, 52, rfl⟩
abbrev main_v40 : Ref sig .tc := ⟨.hbm, 53, rfl⟩
abbrev main_cst_8 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_cst_9 : Ref sig .tc := ⟨.hbm, 59, rfl⟩
abbrev main_v45 : Ref sig .tc := ⟨.hbm, 60, rfl⟩
abbrev main_v46 : Ref sig .tc := ⟨.hbm, 61, rfl⟩
abbrev main_cst_10 : Ref sig .tc := ⟨.hbm, 62, rfl⟩
abbrev main_v47 : Ref sig .tc := ⟨.hbm, 63, rfl⟩
abbrev main_cst_11 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_cst_12 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩

abbrev nD : Nat := 1
abbrev τ : Topo := Topo.v7x

variable {F : FTy → Type} [FloatOps F]

class Facts₀ : Prop where
  reducesTo_S131072x256_S131072_d1 : S131072x256.ReducesTo [1] S131072
  h_S_ : 0 < S_.numel
  bcast_S131072_S131072x1_0 : S131072.BroadcastsInDim S131072x1 (![0] : Fin 1 → Fin S131072x1.rank)
  bcast_S_S131072x1 : S_.BroadcastsInDim S131072x1 (![] : Fin 0 → Fin S131072x1.rank)
  bcast_S131072x1_S131072x256_0_1 : S131072x1.BroadcastsInDim S131072x256 (![0, 1] : Fin 2 → Fin S131072x256.rank)
  bcast_S256_S1x256_1 : S256.BroadcastsInDim S1x256 (![1] : Fin 1 → Fin S1x256.rank)
  bcast_S1x256_S131072x256_0_1 : S1x256.BroadcastsInDim S131072x256 (![0, 1] : Fin 2 → Fin S131072x256.rank)
  reducesTo_S512x256_S512_d1 : S512x256.ReducesTo [1] S512
  bcast_S512_S1x512_1 : S512.BroadcastsInDim S1x512 (![1] : Fin 1 → Fin S1x512.rank)
  bcast_S131072x1_S131072x512_0_1 : S131072x1.BroadcastsInDim S131072x512 (![0, 1] : Fin 2 → Fin S131072x512.rank)
  bcast_S1x512_S131072x512_0_1 : S1x512.BroadcastsInDim S131072x512 (![0, 1] : Fin 2 → Fin S131072x512.rank)
  transposes_S512x256_S256x512_1_0 : S512x256.Transposes [1, 0] S256x512
  bcast_S_S131072x512 : S_.BroadcastsInDim S131072x512 (![] : Fin 0 → Fin S131072x512.rank)
  reducesTo_S131072x512_S131072_d1 : S131072x512.ReducesTo [1] S131072
  bcast_S_S131072 : S_.BroadcastsInDim S131072 (![] : Fin 0 → Fin S131072.rank)
  dot_S131072x256_S256x512_S131072x512_1_0_0_1_n_n_wf : DotDims.WF S131072x256 S256x512 S131072x512 [1] [0] [0] [1] [] []
  dot_S131072x512_S512x256_S131072x256_1_0_0_1_n_n_wf : DotDims.WF S131072x512 S512x256 S131072x256 [1] [0] [0] [1] [] []

variable [Facts₀]

def dot_S131072x256_S256x512_S131072x512_1_0_0_1_n_n : DotDims S131072x256 S256x512 S131072x512 where
  lhsContracting := [1]
  rhsContracting := [0]
  lhsNonContracting := [0]
  rhsNonContracting := [1]
  lhsBatch := []
  rhsBatch := []
  wf := dot_S131072x256_S256x512_S131072x512_1_0_0_1_n_n_wf
def dot_S131072x512_S512x256_S131072x256_1_0_0_1_n_n : DotDims S131072x512 S512x256 S131072x256 where
  lhsContracting := [1]
  rhsContracting := [0]
  lhsNonContracting := [0]
  rhsNonContracting := [1]
  lhsBatch := []
  rhsBatch := []
  wf := dot_S131072x512_S512x256_S131072x256_1_0_0_1_n_n_wf

class Facts : Prop extends Facts₀ where

variable [Facts]
-- ==== Proof.Spec.lean ====
/-
  The mathematics of the two programs, row by row, on the extended reals.

  Every output row depends on the same row `x` of the input, on the affine parameters `w`, `b` and on the
  512 cluster centres `cc c` only, so the specification is stated for ONE row.

  * The row is normalised: `xn k = (x k - mean) / (sqrt var + eps) * w k + b k`, with `mean` and `var` the
    mean and the (biased) variance of the row; the divisor is `sqrt var + eps`, the epsilon added to the
    standard deviation.
  * Its squared distance to centre `c` is taken by the expansion
    `d2 c = (sum_k xn k ^ 2 + sum_k cc c k ^ 2) - 2 * sum_k xn k * cc c k`.
  * One program takes `sqrt (d2 c)`, the other `sqrt (max (d2 c) 0)`.
  * From a row of distances `d`: the mean distance `dmean d`; the scaled negative distance, spelt
    `-32 * (d c / dmean)` in one program and `(-32 * d c) * (1 / dmean)` in the other; the exponentials
    shifted by the row's maximum; and their normalisation, spelt `e c / sum` and `e c * (1 / sum)`.
  * The reconstruction is the assignment row times the centres.

  The float literals stay the words the programs print; nothing here evaluates one.
-/
import Idealize.ShloMosaic.PureOps.Ideal

noncomputable section

namespace Cert.SoftAssign

open Idealize.ShloMosaic

/-- The printed words: 256, the epsilon, 2, 512, -32, 1. -/
abbrev c256 : EReal := Ideal.ofBits .f32 0x43800000#32
abbrev cEps : EReal := Ideal.ofBits .f32 0x3727C5AC#32
abbrev c2 : EReal := Ideal.ofBits .f32 0x40000000#32
abbrev c512 : EReal := Ideal.ofBits .f32 0x44000000#32
abbrev cM32 : EReal := Ideal.ofBits .f32 0xC2000000#32
abbrev c1 : EReal := Ideal.ofBits .f32 0x3F800000#32

/-- Every entry of a row (or of a family of rows) is a real number. -/
def IsRealRow {n : Nat} (f : Fin n → EReal) : Prop := ∀ k, ∃ r : ℝ, f k = (r : EReal)

section Row

variable (x w b : Fin 256 → EReal) (cc : Fin 512 → Fin 256 → EReal)

/-- The row's mean. -/
def mean : EReal := Ideal.div (∑ k, x k) c256
/-- The row, centred. -/
def diff (k : Fin 256) : EReal := x k - mean x
/-- The row's biased variance. -/
def var : EReal := Ideal.div (∑ k, diff x k * diff x k) c256
/-- The divisor of the normalisation: the standard deviation plus the epsilon. -/
def den : EReal := Ideal.sqrt (var x) + cEps
/-- The normalised row. -/
def xn (k : Fin 256) : EReal := Ideal.div (diff x k) (den x) * w k + b k
/-- The normalised row's squared norm. -/
def xsq : EReal := ∑ k, xn x w b k * xn x w b k
/-- Centre `c`'s squared norm. -/
def csq (c : Fin 512) : EReal := ∑ k, cc c k * cc c k
/-- The inner product of the normalised row with centre `c`. -/
def dot (c : Fin 512) : EReal := ∑ k, xn x w b k * cc c k
/-- The squared distance to centre `c`, by the expansion of the square. -/
def d2 (c : Fin 512) : EReal := (xsq x w b + csq cc c) - c2 * dot x w b cc c
/-- The distance, as the square root of the expansion. -/
def distR (c : Fin 512) : EReal := Ideal.sqrt (d2 x w b cc c)
/-- The distance, with the expansion clamped at zero first. -/
def distK (c : Fin 512) : EReal := Ideal.sqrt (max (d2 x w b cc c) 0)

end Row

section Assign

variable (d : Fin 512 → EReal)

/-- The mean of a row of distances. -/
def dmean : EReal := Ideal.div (∑ c, d c) c512
/-- The scaled negative distance, the quotient taken first. -/
def logitR (c : Fin 512) : EReal := cM32 * Ideal.div (d c) (dmean d)
/-- The scaled negative distance, multiplied by the reciprocal of the mean. -/
def logitK (c : Fin 512) : EReal := (cM32 * d c) * Ideal.div c1 (dmean d)
/-- A row's maximum, folded from minus infinity. -/
def rowmax (l : Fin 512 → EReal) : EReal := (Finset.univ : Finset (Fin 512)).fold max ⊥ l
/-- The shifted exponentials; this spelling takes the maximum with minus infinity once more. -/
def expR (c : Fin 512) : EReal := Ideal.exp (logitR d c - max ⊥ (rowmax (logitR d)))
/-- The shifted exponentials. -/
def expK (c : Fin 512) : EReal := Ideal.exp (logitK d c - rowmax (logitK d))
/-- The soft assignment, as a quotient by the row's sum. -/
def assignR (c : Fin 512) : EReal := Ideal.div (expR d c) (∑ c', expR d c')
/-- The soft assignment, as a product with the reciprocal of the row's sum. -/
def assignK (c : Fin 512) : EReal := expK d c * Ideal.div c1 (∑ c', expK d c')

end Assign

/-- The reconstruction: an assignment row times the centres. -/
def recOf (a : Fin 512 → EReal) (cc : Fin 512 → Fin 256 → EReal) (j : Fin 256) : EReal := ∑ c, a c * cc c j

end Cert.SoftAssign

end
-- ==== Proof.KernelStmt.lean ====
/-
  What one grid point's body leaves in its three output blocks, stated as propositions.

  The body sees a block `x0` of 2048 rows of the input, the affine parameters as [1, 256] rows `x1`, `x2`, the centres
  `x3`, their transpose `x4` and their squared norms `x5` as a [1, 512] row. Given that `x4` IS the transpose of
  `x3` and `x5` the row of its squared norms, row `p` of each output block is the one-row specification (clamped
  distances, reciprocal spelling) of row `p` of `x0`.
-/
import proofs.«178753_j32066225832561_2_alg».proof.Proof.Spec
import proofs.«178753_j32066225832561_2_alg».proof.Proof.Gen.KernelIdeal.Frame
import Idealize.ShloMosaic.Lib.ValueIdx

noncomputable section

namespace Cert.SoftAssign

open Idealize.ShloMosaic Idealize.ShloMosaic.ValueIdx Cert.KernelIdeal Cert.KernelIdeal.Gen

/-- Row `p` of a block of input rows. -/
def blkRow (x0 : Vec Ideal S2048x256 .f32) (p : Fin 2048) : Fin 256 → EReal := fun k => x0 (ix2 p k)
/-- A [1, 256] row as a row. -/
def oneRow (x1 : Vec Ideal S1x256 .f32) : Fin 256 → EReal := fun k => x1 (ix2 0 k)
/-- The centres held in a block, one row each. -/
def blkCentres (x3 : Vec Ideal S512x256 .f32) : Fin 512 → Fin 256 → EReal := fun c k => x3 (ix2 c k)

/-- `x4` is the transpose of `x3`. -/
def IsTranspose (x3 : Vec Ideal S512x256 .f32) (x4 : Vec Ideal S256x512 .f32) : Prop :=
  ∀ (k : Fin 256) (c : Fin 512), x4 (ix2 k c) = x3 (ix2 c k)
/-- `x5` is the row of the centres' squared norms. -/
def IsSqNorms (x3 : Vec Ideal S512x256 .f32) (x5 : Vec Ideal S1x512 .f32) : Prop :=
  ∀ c : Fin 512, x5 (ix2 0 c) = csq (blkCentres x3) c

/-- The first output block holds the clamped distances. -/
def Out6Spec : Prop :=
  ∀ (x0 : Vec Ideal S2048x256 .f32) (x1 x2 : Vec Ideal S1x256 .f32) (x3 : Vec Ideal S512x256 .f32)
    (x4 : Vec Ideal S256x512 .f32) (x5 : Vec Ideal S1x512 .f32), IsTranspose x3 x4 → IsSqNorms x3 x5 →
    ∀ (p : Fin 2048) (q : Fin 512),
      out0_6 (F := Ideal) x0 x1 x2 x3 x4 x5 (ix2 p q) = distK (blkRow x0 p) (oneRow x1) (oneRow x2) (blkCentres x3) q

/-- The second output block holds their soft assignment, reciprocal spelling. -/
def Out7Spec : Prop :=
  ∀ (x0 : Vec Ideal S2048x256 .f32) (x1 x2 : Vec Ideal S1x256 .f32) (x3 : Vec Ideal S512x256 .f32)
    (x4 : Vec Ideal S256x512 .f32) (x5 : Vec Ideal S1x512 .f32), IsTranspose x3 x4 → IsSqNorms x3 x5 →
    ∀ (p : Fin 2048) (q : Fin 512),
      out0_7 (F := Ideal) x0 x1 x2 x3 x4 x5 (ix2 p q)
        = assignK (distK (blkRow x0 p) (oneRow x1) (oneRow x2) (blkCentres x3)) q

/-- The third output block holds the reconstruction from that assignment. -/
def Out8Spec : Prop :=
  ∀ (x0 : Vec Ideal S2048x256 .f32) (x1 x2 : Vec Ideal S1x256 .f32) (x3 : Vec Ideal S512x256 .f32)
    (x4 : Vec Ideal S256x512 .f32) (x5 : Vec Ideal S1x512 .f32), IsTranspose x3 x4 → IsSqNorms x3 x5 →
    ∀ (p : Fin 2048) (j : Fin 256),
      out0_8 (F := Ideal) x0 x1 x2 x3 x4 x5 (ix2 p j)
        = recOf (assignK (distK (blkRow x0 p) (oneRow x1) (oneRow x2) (blkCentres x3))) (blkCentres x3) j

end Cert.SoftAssign

end
-- ==== Proof.LibKeepdims.lean ====
/-
  General lemmas, independent of any program: the keep-dimensions layout operations read at an index, and
  reductions along one axis of a matrix read at an index, at the ideal values.

  * a vector `[a]` cast to a column `[a, 1]` reads, at `(i, 0)`, the vector at `i`;
  * a column `[a, 1]` broadcast to `[a, b]` reads, at `(i, j)`, the column at `(i, 0)`;
  * a minimum reduction along one axis is the fold of `min`, from the starting value, over that axis's coordinates
    (for a kernel's vector reduction and for the host's `reduce` alike);
  * a sum along either axis of a matrix, at a result index, is the `Fin`-indexed sum over the reduced coordinate.
-/
import Idealize.ShloMosaic.PureOps.Ideal.Laws
import Idealize.ShloMosaic.Lib.ValueIdx
import Idealize.ShloMosaic.Lib.ValueLayout
import Idealize.ShloMosaic.Lib.Pipeline.Value

noncomputable section

namespace Cert.LibKeepdims

open Idealize.ShloMosaic Idealize.ShloMosaic.ValueIdx

variable {α : Type}

/-- A vector `[a]` cast to a column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A minimum reduction of a vector along ONE axis, read at the ideal values: the fold of `min` from the accumulator's
    value over that axis's coordinates. -/
theorem multiReduction_minimumf_single {s t : Shape} {a : Fin s.rank} {φ : FTy} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (Ideal.ofBits φ acc) (src ∘ h.lift j) := by
  rw [multiReduction_minimumf_eq_fold]; exact h.fold_filter_drop_single _ _ src j

section Matrix
variable {a b : ℕ} {φ : FTy}

/-- The minimum along the rows of a matrix: at `p`, the fold over the columns `q` of the entry `(p, q)`. -/
theorem min_axis1_apply (src : FVec Ideal ⟨2, ![a, b]⟩ φ) (acc : BitVec φ.bits)
    (h : (⟨2, ![a, b]⟩ : Shape).Reduces [1] ⟨1, ![a]⟩) (hφ : FKind.Formats φ) (hacc : acc = FKind.minimumf.neutral φ hφ) (p : Fin a) :
    multiReduction .minimumf [1] ⟨1, ![a]⟩ src acc h hφ hacc (ix1 p)
      = (Finset.univ : Finset (Fin b)).fold min (Ideal.ofBits φ acc) (fun q => src (ix2 p q)) := by
  refine (multiReduction_minimumf_single src acc h hφ hacc (ix1 p)).trans ?_
  refine Finset.fold_congr fun q _ => ?_
  exact congrArg src (funext fun d => Fin.ext (by match d with | ⟨0, _⟩ => rfl | ⟨1, _⟩ => rfl))

/-- The minimum down the columns of a matrix: at `q`, the fold over the rows `p` of the entry `(p, q)`. -/
theorem min_axis0_apply (src : FVec Ideal ⟨2, ![a, b]⟩ φ) (acc : BitVec φ.bits)
    (h : (⟨2, ![a, b]⟩ : Shape).Reduces [0] ⟨1, ![b]⟩) (hφ : FKind.Formats φ) (hacc : acc = FKind.minimumf.neutral φ hφ) (q : Fin b) :
    multiReduction .minimumf [0] ⟨1, ![b]⟩ src acc h hφ hacc (ix1 q)
      = (Finset.univ : Finset (Fin a)).fold min (Ideal.ofBits φ acc) (fun p => src (ix2 p q)) := by
  refine (multiReduction_minimumf_single src acc h hφ hacc (ix1 q)).trans ?_
  refine Finset.fold_congr fun p _ => ?_
  exact congrArg src (funext fun d => Fin.ext (by match d with | ⟨0, _⟩ => rfl | ⟨1, _⟩ => rfl))

/-- The sum down the columns of a matrix: at `q`, the sum over the rows `p` of the entry `(p, q)`. -/
theorem add_axis0_apply (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (q : Fin b) :
    multiReduction .add [0] ⟨1, ![b]⟩ src acc h hφ hacc (ix1 q) = ∑ p : Fin a, src (ix2 p q) := by
  refine (Ideal.multiReduction_add_single src acc h hφ hacc (ix1 q)).trans ?_
  refine Finset.sum_congr rfl fun p _ => ?_
  exact congrArg src (funext fun d => Fin.ext (by match d with | ⟨0, _⟩ => rfl | ⟨1, _⟩ => rfl))

/-- The sum along the rows of a matrix: at `p`, the sum over the columns `q` of the entry `(p, q)`. -/
theorem add_axis1_apply (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ q : Fin b, src (ix2 p q) := by
  refine (Ideal.multiReduction_add_single src acc h hφ hacc (ix1 p)).trans ?_
  refine Finset.sum_congr rfl fun q _ => ?_
  exact congrArg src (funext fun d => Fin.ext (by match d with | ⟨0, _⟩ => rfl | ⟨1, _⟩ => rfl))

end Matrix

end Cert.LibKeepdims

end
-- ==== Proof.LibMatmulSum.lean ====
/-
  A matrix product read at an entry, at the ideal values.

  For a product of an R-by-K matrix with a K-by-N matrix that contracts the left operand's second axis with the
  right operand's first, the entry at row r and column c is the plain sum over k of left[r,k] * right[k,c]:
  whether the product is the kernel's accumulate-into-zero or the host's, and whatever the element formats (a
  change of format is the identity on extended reals). The dimension record says which coordinate of each
  operand index comes from the output index and which from the contraction index; those four facts are the
  hypotheses, and re-indexing the contraction index by its single coordinate gives the sum over `Fin K`.
-/
import Idealize.ShloMosaic.PureOps.Ideal.Laws
import Idealize.ShloMosaic.Lib.ValueIdx

noncomputable section

namespace Cert.GraphConv

open Idealize.ShloMosaic Idealize.ShloMosaic.ValueIdx

variable {R K N : ℕ} {φ₁ φ₂ : FTy}

/-- The operand indices of a row-by-column product, from the four coordinate facts of its dimension record. -/
theorem dot_operand_indices (D : DotDims ⟨2, ![R, K]⟩ ⟨2, ![K, N]⟩ ⟨2, ![R, N]⟩)
    (hr : D.contr.rank = 1) (hs : D.contr.size ⟨0, by omega⟩ = K)
    (hl0 : ∀ (i : (⟨2, ![R, N]⟩ : Shape).Idx) (q : D.contr.Idx), (D.lhsIdx i q 0).val = (i 0).val)
    (hl1 : ∀ (i : (⟨2, ![R, N]⟩ : Shape).Idx) (q : D.contr.Idx), (D.lhsIdx i q 1).val = (q ⟨0, by omega⟩).val)
    (hr0 : ∀ (i : (⟨2, ![R, N]⟩ : Shape).Idx) (q : D.contr.Idx), (D.rhsIdx i q 0).val = (q ⟨0, by omega⟩).val)
    (hr1 : ∀ (i : (⟨2, ![R, N]⟩ : Shape).Idx) (q : D.contr.Idx), (D.rhsIdx i q 1).val = (i 1).val)
    (i : (⟨2, ![R, N]⟩ : Shape).Idx) (k : Fin K) :
    D.lhsIdx i ((contrEquiv1 D K hr hs).symm k) = ix2 (i 0) k
      ∧ D.rhsIdx i ((contrEquiv1 D K hr hs).symm k) = ix2 k (i 1) := by
  have hk := contrEquiv1_symm_val D K hr hs k
  constructor
  · funext a
    apply Fin.ext
    match a with
    | ⟨0, _⟩ => exact hl0 _ _
    | ⟨1, _⟩ => exact (hl1 _ _).trans hk
  · funext a
    apply Fin.ext
    match a with
    | ⟨0, _⟩ => exact (hr0 _ _).trans hk
    | ⟨1, _⟩ => exact hr1 _ _

/-- A kernel's matrix product into a zero accumulator, read at an entry: the sum over k of the operands' products. -/
theorem matmul_zero_sum (D : DotDims ⟨2, ![R, K]⟩ ⟨2, ![K, N]⟩ ⟨2, ![R, N]⟩) (prec : Option ContractPrecision)
    (hr : D.contr.rank = 1) (hs : D.contr.size ⟨0, by omega⟩ = K)
    (hl0 : ∀ (i : (⟨2, ![R, N]⟩ : Shape).Idx) (q : D.contr.Idx), (D.lhsIdx i q 0).val = (i 0).val)
    (hl1 : ∀ (i : (⟨2, ![R, N]⟩ : Shape).Idx) (q : D.contr.Idx), (D.lhsIdx i q 1).val = (q ⟨0, by omega⟩).val)
    (hr0 : ∀ (i : (⟨2, ![R, N]⟩ : Shape).Idx) (q : D.contr.Idx), (D.rhsIdx i q 0).val = (q ⟨0, by omega⟩).val)
    (hr1 : ∀ (i : (⟨2, ![R, N]⟩ : Shape).Idx) (q : D.contr.Idx), (D.rhsIdx i q 1).val = (i 1).val)
    (l : FVec Ideal ⟨2, ![R, K]⟩ φ₁) (r : FVec Ideal ⟨2, ![K, N]⟩ φ₂) (i : (⟨2, ![R, N]⟩ : Shape).Idx) :
    FloatOps.matmul D prec l r (constant (F := Ideal) ⟨2, ![R, N]⟩ .f32 0x00000000#32) i
      = ∑ k : Fin K, l (ix2 (i 0) k) * r (ix2 k (i 1)) := by
  rw [Ideal.matmul_constant_zero_apply, ← Equiv.sum_comp (contrEquiv1 D K hr hs).symm]
  refine Finset.sum_congr rfl fun k _ => ?_
  obtain ⟨el, er⟩ := dot_operand_indices D hr hs hl0 hl1 hr0 hr1 i k
  rw [el, er]
  rfl

/-- The host's matrix product read at an entry: the same sum. -/
theorem dotGeneral_sum (D : DotDims ⟨2, ![R, K]⟩ ⟨2, ![K, N]⟩ ⟨2, ![R, N]⟩) (prec : Option ContractPrecision) (sched : HostSchedule)
    (hr : D.contr.rank = 1) (hs : D.contr.size ⟨0, by omega⟩ = K)
    (hl0 : ∀ (i : (⟨2, ![R, N]⟩ : Shape).Idx) (q : D.contr.Idx), (D.lhsIdx i q 0).val = (i 0).val)
    (hl1 : ∀ (i : (⟨2, ![R, N]⟩ : Shape).Idx) (q : D.contr.Idx), (D.lhsIdx i q 1).val = (q ⟨0, by omega⟩).val)
    (hr0 : ∀ (i : (⟨2, ![R, N]⟩ : Shape).Idx) (q : D.contr.Idx), (D.rhsIdx i q 0).val = (q ⟨0, by omega⟩).val)
    (hr1 : ∀ (i : (⟨2, ![R, N]⟩ : Shape).Idx) (q : D.contr.Idx), (D.rhsIdx i q 1).val = (i 1).val)
    (l : FVec Ideal ⟨2, ![R, K]⟩ φ₁) (r : FVec Ideal ⟨2, ![K, N]⟩ φ₂) (i : (⟨2, ![R, N]⟩ : Shape).Idx) :
    FloatOps.dotGeneral D prec sched l r i
      = ∑ k : Fin K, l (ix2 (i 0) k) * r (ix2 k (i 1)) := by
  rw [Ideal.dotGeneral_apply, ← Equiv.sum_comp (contrEquiv1 D K hr hs).symm]
  refine Finset.sum_congr rfl fun k _ => ?_
  obtain ⟨el, er⟩ := dot_operand_indices D hr hs hl0 hl1 hr0 hr1 i k
  rw [el, er]
  rfl

end Cert.GraphConv

end
-- ==== Proof.KernelPayD2.lean ====
/-
  The first half of the body, read at an index: the expansion of the squared distance.

  The body normalises each of its 2048 rows and forms, for every centre, the sum of the row's and the centre's
  squared norms minus twice their inner product. Here that value, at row `p` and centre `q` of the block, is
  identified with the one-row specification `d2` of row `p`: the body is cut into its stages (the row mean as
  a column, the centred rows, the divisor column, the normalised rows, the expansion), each stage is read at an
  index, and the stages compose.

  A sum along a row, kept as a column [2048, 1], reads at (p, 0) as the sum over the row's entries; such a
  column broadcast across the row reads at (p, k) as the column at (p, 0); a [1, K] row broadcast down the
  rows reads at (p, k) as the row's entry k; and the product with the transposed centres, accumulated from zero,
  reads at (p, q) as the sum over k of the normalised row's entry k times the transposed centres' entry (k, q).
-/
import proofs.«178753_j32066225832561_2_alg».proof.Proof.KernelStmt
import proofs.«178753_j32066225832561_2_alg».proof.Proof.LibKeepdims
import proofs.«178753_j32066225832561_2_alg».proof.Proof.LibMatmulSum
import Idealize.ShloMosaic.Lib.Pipeline.Value
import Idealize.ShloMosaic.Lib.ValueLayout

noncomputable section

namespace Cert.SoftAssign.Pay

open Idealize.ShloMosaic Idealize.ShloMosaic.ValueIdx Cert.SoftAssign Cert.KernelIdeal Cert.KernelIdeal.Gen
open Cert.LibKeepdims

/-! ## Row sums kept as columns -/

/-- The sum along each row of a [2048, 256] block, as a column. -/
def colSum256 (v : FVec Ideal S2048x256 .f32) : FVec Ideal S2048x1 .f32 :=
  shapeCast S2048x1 (multiReduction .add [1] S2048 v 0x00000000#32 reduces_S2048x256_S2048 (.inl rfl) rfl)
    shapeCasts_S2048_S2048x1

theorem colSum256_at (v : FVec Ideal S2048x256 .f32) (p : Fin 2048) (u : Fin 1) :
    colSum256 v (ix2 p u) = ∑ k : Fin 256, v (ix2 p k) :=
  (shapeCast_a_a1_apply _ shapeCasts_S2048_S2048x1 p u).trans
    (add_axis1_apply v _ reduces_S2048x256_S2048 (.inl rfl) rfl p)

/-! ## The stages -/

/-- The row means, as a column. -/
def kMean (x0 : Vec Ideal S2048x256 .f32) : FVec Ideal S2048x1 .f32 :=
  divf (colSum256 x0) (broadcast S2048x1 (Scalar.ofBits .f32 0x43800000#32))

/-- The centred rows. -/
def kDiff (x0 : Vec Ideal S2048x256 .f32) : FVec Ideal S2048x256 .f32 :=
  subf x0 (broadcastTo S2048x256 (kMean x0) broadcasts_S2048x1_S2048x256)

/-- The divisors, as a column: standard deviation plus epsilon. -/
def kDen (x0 : Vec Ideal S2048x256 .f32) : FVec Ideal S2048x1 .f32 :=
  addf (sqrt (divf (colSum256 (mulf (kDiff x0) (kDiff x0))) (broadcast S2048x1 (Scalar.ofBits .f32 0x43800000#32))))
    (broadcast S2048x1 (Scalar.ofBits .f32 0x3727C5AC#32))

/-- The normalised rows. -/
def kXn (x0 : Vec Ideal S2048x256 .f32) (x1 x2 : Vec Ideal S1x256 .f32) : FVec Ideal S2048x256 .f32 :=
  addf (mulf (divf (kDiff x0) (broadcastTo S2048x256 (kDen x0) broadcasts_S2048x1_S2048x256))
      (broadcastTo S2048x256 (shapeCast S1x256 x1 shapeCasts_S1x256_S1x256) broadcasts_S1x256_S2048x256))
    (broadcastTo S2048x256 (shapeCast S1x256 x2 shapeCasts_S1x256_S1x256) broadcasts_S1x256_S2048x256)

/-- The expansion of the squared distances. -/
def kD2 (x0 : Vec Ideal S2048x256 .f32) (x1 x2 : Vec Ideal S1x256 .f32) (x5 : Vec Ideal S1x512 .f32)
    (x4 : Vec Ideal S256x512 .f32) : FVec Ideal S2048x512 .f32 :=
  subf (addf (broadcastTo S2048x512 (colSum256 (mulf (kXn x0 x1 x2) (kXn x0 x1 x2))) broadcasts_S2048x1_S2048x512)
      (broadcastTo S2048x512 (shapeCast S1x512 x5 shapeCasts_S1x512_S1x512) broadcasts_S1x512_S2048x512))
    (mulf (broadcast S2048x512 (Scalar.ofBits .f32 0x40000000#32))
      (matmul dot_S2048x256_S256x512_S2048x512_1_0_0_1_n_n (some .fp32) (kXn x0 x1 x2)
        (shapeCast S256x512 x4 shapeCasts_S256x512_S256x512 : FVec Ideal S256x512 .f32)
        (constant S2048x512 .f32 0x00000000#32)))

/-- The body's first half is the last stage. -/
theorem pay4_eq (x0 : Vec Ideal S2048x256 .f32) (x1 x2 : Vec Ideal S1x256 .f32) (x5 : Vec Ideal S1x512 .f32)
    (x4 : Vec Ideal S256x512 .f32) : k0_pay4 (F := Ideal) x0 x1 x2 x5 x4 = kD2 x0 x1 x2 x5 x4 := rfl

/-! ## The stages at an index -/

theorem kMean_at (x0 : Vec Ideal S2048x256 .f32) (p : Fin 2048) (u : Fin 1) :
    kMean x0 (ix2 p u) = mean (blkRow x0 p) := by
  show Ideal.div (colSum256 x0 (ix2 p u)) (Ideal.ofBits .f32 0x43800000#32) = _
  rw [colSum256_at]
  rfl

theorem kDiff_at (x0 : Vec Ideal S2048x256 .f32) (p : Fin 2048) (k : Fin 256) :
    kDiff x0 (ix2 p k) = diff (blkRow x0 p) k := by
  show x0 (ix2 p k) - broadcastTo S2048x256 (kMean x0) broadcasts_S2048x1_S2048x256 (ix2 p k) = _
  rw [broadcastTo_a1_ab_apply, kMean_at]
  rfl

theorem kDen_at (x0 : Vec Ideal S2048x256 .f32) (p : Fin 2048) (u : Fin 1) :
    kDen x0 (ix2 p u) = den (blkRow x0 p) := by
  show Ideal.sqrt (Ideal.div (colSum256 (mulf (kDiff x0) (kDiff x0)) (ix2 p u)) (Ideal.ofBits .f32 0x43800000#32))
      + Ideal.ofBits .f32 0x3727C5AC#32 = _
  rw [colSum256_at]
  simp only [mulf_apply, kDiff_at]
  rfl

theorem kXn_at (x0 : Vec Ideal S2048x256 .f32) (x1 x2 : Vec Ideal S1x256 .f32) (p : Fin 2048) (k : Fin 256) :
    kXn x0 x1 x2 (ix2 p k) = xn (blkRow x0 p) (oneRow x1) (oneRow x2) k := by
  show Ideal.div (kDiff x0 (ix2 p k)) (broadcastTo S2048x256 (kDen x0) broadcasts_S2048x1_S2048x256 (ix2 p k))
        * broadcastTo S2048x256 (shapeCast S1x256 x1 shapeCasts_S1x256_S1x256) broadcasts_S1x256_S2048x256 (ix2 p k)
      + broadcastTo S2048x256 (shapeCast S1x256 x2 shapeCasts_S1x256_S1x256) broadcasts_S1x256_S2048x256 (ix2 p k) = _
  rw [broadcastTo_a1_ab_apply, broadcastTo_1b_ab_apply, broadcastTo_1b_ab_apply, shapeCast_self, shapeCast_self,
    kDiff_at, kDen_at]
  rfl

/-- The expansion at row `p`, centre `q`: the one-row specification, given that `x4` is the centres
    transposed and `x5` their squared norms. -/
theorem kD2_at (x0 : Vec Ideal S2048x256 .f32) (x1 x2 : Vec Ideal S1x256 .f32) (x5 : Vec Ideal S1x512 .f32)
    (x4 : Vec Ideal S256x512 .f32) (cc : Fin 512 → Fin 256 → EReal)
    (hT : ∀ (k : Fin 256) (c : Fin 512), x4 (ix2 k c) = cc c k) (hS : ∀ c : Fin 512, x5 (ix2 0 c) = csq cc c)
    (p : Fin 2048) (q : Fin 512) :
    kD2 x0 x1 x2 x5 x4 (ix2 p q) = d2 (blkRow x0 p) (oneRow x1) (oneRow x2) cc q := by
  show (broadcastTo S2048x512 (colSum256 (mulf (kXn x0 x1 x2) (kXn x0 x1 x2))) broadcasts_S2048x1_S2048x512 (ix2 p q)
        + broadcastTo S2048x512 (shapeCast S1x512 x5 shapeCasts_S1x512_S1x512) broadcasts_S1x512_S2048x512 (ix2 p q))
      - Ideal.ofBits .f32 0x40000000#32
        * FloatOps.matmul dot_S2048x256_S256x512_S2048x512_1_0_0_1_n_n (some .fp32) (kXn x0 x1 x2)
            (shapeCast S256x512 x4 shapeCasts_S256x512_S256x512 : FVec Ideal S256x512 .f32)
            (constant S2048x512 .f32 0x00000000#32) (ix2 p q) = _
  rw [broadcastTo_a1_ab_apply, broadcastTo_1b_ab_apply, shapeCast_self, shapeCast_self, colSum256_at, hS]
  rw [Cert.GraphConv.matmul_zero_sum (R := 2048) (K := 256) (N := 512) dot_S2048x256_S256x512_S2048x512_1_0_0_1_n_n
    (some .fp32) (by decide) (by decide) (fun _ _ => by rfl) (fun _ _ => by rfl) (fun _ _ => by rfl) (fun _ _ => by rfl)]
  simp only [mulf_apply, kXn_at, hT]
  rfl

end Cert.SoftAssign.Pay

end
-- ==== Proof.Consts.lean ====
/-
  The printed float words of the specification, evaluated. Each word is read off its sign, exponent and
  significand fields: a normal word denotes (2^23 + T) * 2^(E - 127 - 23), an all-ones exponent with a zero
  significand an infinity.
-/
import proofs.«178753_j32066225832561_2_alg».proof.Proof.Spec

namespace Cert.SoftAssign

open Idealize.ShloMosaic

/-- 0x43800000: exponent field 135, significand 0, so 2^23 * 2^(135 - 150) = 256. -/
theorem c256_eq : c256 = ((256 : ℝ) : EReal) := by
  simp [c256, Ideal.ofBits, Ideal.ieee]
  rw [← EReal.coe_mul]
  norm_num

/-- 0x40000000: exponent field 128, significand 0, so 2^23 * 2^(128 - 150) = 2. -/
theorem c2_eq : c2 = ((2 : ℝ) : EReal) := by
  simp [c2, Ideal.ofBits, Ideal.ieee]
  rw [← EReal.coe_mul]
  norm_num

/-- 0x44000000: exponent field 136, significand 0, so 2^23 * 2^(136 - 150) = 512. -/
theorem c512_eq : c512 = ((512 : ℝ) : EReal) := by
  simp [c512, Ideal.ofBits, Ideal.ieee]
  rw [← EReal.coe_mul]
  norm_num

/-- 0xC2000000: sign bit set, exponent field 132, significand 0, so -(2^23 * 2^(132 - 150)) = -32. -/
theorem cM32_eq : cM32 = ((-32 : ℝ) : EReal) := by
  simp [cM32, Ideal.ofBits, Ideal.ieee]
  rw [← EReal.coe_mul]
  norm_num

/-- 0x3F800000: exponent field 127, significand 0, so 2^23 * 2^(127 - 150) = 1. -/
theorem c1_eq : c1 = ((1 : ℝ) : EReal) := by
  simp [c1, Ideal.ofBits, Ideal.ieee]
  rw [← EReal.coe_mul]
  norm_num

/-- 0x3727C5AC: exponent field 110, significand 2606508, so (2^23 + 2606508) * 2^(110 - 150)
    = 10995116 / 2^40, a positive real. -/
theorem cEps_pos : ∃ e : ℝ, 0 < e ∧ cEps = (e : EReal) := by
  refine ⟨10995116 / 2 ^ 40, by norm_num, ?_⟩
  simp [cEps, Ideal.ofBits, Ideal.ieee]
  rw [← EReal.coe_mul]
  norm_num

/-- 0xFF800000: sign bit set, all-ones exponent, zero significand: minus infinity. -/
theorem ofBits_neg_inf : Ideal.ofBits .f32 0xFF800000#32 = (⊥ : EReal) := by
  simp [Ideal.ofBits, Ideal.ieee]

/-- 0x7F800000: sign bit clear, all-ones exponent, zero significand: plus infinity. -/
theorem ofBits_pos_inf : Ideal.ofBits .f32 0x7F800000#32 = (⊤ : EReal) := by
  simp [Ideal.ofBits, Ideal.ieee]

end Cert.SoftAssign
-- ==== Proof.KernelPayAssign.lean ====
/-
  The second half of the body, read at an index: from a block of distances to its soft assignment.

  For a [2048, 512] block `dist` of distances the body takes each row's mean (a sum along the row, kept as a
  column, over 512), multiplies the row by -32 and by the reciprocal of that mean, subtracts the row's maximum,
  exponentiates, and multiplies by the reciprocal of the row's sum. At row `p`, column `q` this is the one-row
  specification, reciprocal spelling, of row `p` of `dist`.

  A maximum along a row, folded from the starting word, reads at `p` as the fold of `max` over the row's
  entries; the starting word is minus infinity.
-/
import proofs.«178753_j32066225832561_2_alg».proof.Proof.KernelStmt
import proofs.«178753_j32066225832561_2_alg».proof.Proof.Consts
import proofs.«178753_j32066225832561_2_alg».proof.Proof.LibKeepdims
import Idealize.ShloMosaic.Lib.Pipeline.Value

noncomputable section

namespace Cert.SoftAssign.Pay

open Idealize.ShloMosaic Idealize.ShloMosaic.ValueIdx Cert.SoftAssign Cert.KernelIdeal Cert.KernelIdeal.Gen
open Cert.LibKeepdims

/-- Row `p` of a block of distances. -/
def distRow (dist : FVec Ideal S2048x512 .f32) (p : Fin 2048) : Fin 512 → EReal := fun c => dist (ix2 p c)

/-! ## Row sums and row maxima kept as columns -/

/-- The sum along each row of a [2048, 512] block, as a column. -/
def colSum512 (v : FVec Ideal S2048x512 .f32) : FVec Ideal S2048x1 .f32 :=
  shapeCast S2048x1 (multiReduction .add [1] S2048 v 0x00000000#32 reduces_S2048x512_S2048 (.inl rfl) rfl)
    shapeCasts_S2048_S2048x1

theorem colSum512_at (v : FVec Ideal S2048x512 .f32) (p : Fin 2048) (u : Fin 1) :
    colSum512 v (ix2 p u) = ∑ c : Fin 512, v (ix2 p c) :=
  (shapeCast_a_a1_apply _ shapeCasts_S2048_S2048x1 p u).trans
    (add_axis1_apply v _ reduces_S2048x512_S2048 (.inl rfl) rfl p)

/-- The maximum along each row of a [2048, 512] block, folded from minus infinity, as a column. -/
def colMax512 (v : FVec Ideal S2048x512 .f32) : FVec Ideal S2048x1 .f32 :=
  shapeCast S2048x1 (multiReduction .maximumf [1] S2048 v 0xFF800000#32 reduces_S2048x512_S2048 (.inl rfl) rfl)
    shapeCasts_S2048_S2048x1

theorem colMax512_at (v : FVec Ideal S2048x512 .f32) (p : Fin 2048) (u : Fin 1) :
    colMax512 v (ix2 p u) = rowmax (fun c => v (ix2 p c)) := by
  refine (shapeCast_a_a1_apply _ shapeCasts_S2048_S2048x1 p u).trans ?_
  refine (Ideal.multiReduction_maximumf_single v _ reduces_S2048x512_S2048 (.inl rfl) rfl (ix1 p)).trans ?_
  show (Finset.univ : Finset (Fin 512)).fold max (Ideal.ofBits .f32 0xFF800000#32) _ = _
  rw [ofBits_neg_inf]
  unfold rowmax
  refine Finset.fold_congr fun c _ => ?_
  exact congrArg v (funext fun d => Fin.ext (by match d with | ⟨0, _⟩ => rfl | ⟨1, _⟩ => rfl))

/-! ## The stages -/

/-- The row means of the distances, as a column. -/
def kDmean (dist : FVec Ideal S2048x512 .f32) : FVec Ideal S2048x1 .f32 :=
  divf (colSum512 dist) (broadcast S2048x1 (Scalar.ofBits .f32 0x44000000#32))

/-- The scaled negative distances: times -32, times the reciprocal of the row mean. -/
def kLogit (dist : FVec Ideal S2048x512 .f32) : FVec Ideal S2048x512 .f32 :=
  mulf (mulf (broadcast S2048x512 (Scalar.ofBits .f32 0xC2000000#32)) dist)
    (broadcastTo S2048x512 (divf (broadcast S2048x1 (Scalar.ofBits .f32 0x3F800000#32)) (kDmean dist))
      broadcasts_S2048x1_S2048x512)

/-- The exponentials, shifted by the row maximum. -/
def kExp (dist : FVec Ideal S2048x512 .f32) : FVec Ideal S2048x512 .f32 :=
  exp (subf (kLogit dist) (broadcastTo S2048x512 (colMax512 (kLogit dist)) broadcasts_S2048x1_S2048x512))

/-- The soft assignment: times the reciprocal of the row sum. -/
def kAssign (dist : FVec Ideal S2048x512 .f32) : FVec Ideal S2048x512 .f32 :=
  mulf (kExp dist)
    (broadcastTo S2048x512 (divf (broadcast S2048x1 (Scalar.ofBits .f32 0x3F800000#32)) (colSum512 (kExp dist)))
      broadcasts_S2048x1_S2048x512)

/-- The body's second half is the last stage, of the first output's block. -/
theorem pay2_eq (v38 v39 : FVec Ideal S2048x512 .f32) : k0_pay2 (F := Ideal) v38 v39 = kAssign (k0_pay1 v38 v39) := rfl

/-! ## The stages at an index -/

theorem kDmean_at (dist : FVec Ideal S2048x512 .f32) (p : Fin 2048) (u : Fin 1) :
    kDmean dist (ix2 p u) = dmean (distRow dist p) := by
  show Ideal.div (colSum512 dist (ix2 p u)) (Ideal.ofBits .f32 0x44000000#32) = _
  rw [colSum512_at]
  rfl

theorem kLogit_at (dist : FVec Ideal S2048x512 .f32) (p : Fin 2048) (q : Fin 512) :
    kLogit dist (ix2 p q) = logitK (distRow dist p) q := by
  show (Ideal.ofBits .f32 0xC2000000#32 * dist (ix2 p q))
      * broadcastTo S2048x512 (divf (broadcast S2048x1 (Scalar.ofBits .f32 0x3F800000#32)) (kDmean dist))
          broadcasts_S2048x1_S2048x512 (ix2 p q) = _
  rw [broadcastTo_a1_ab_apply]
  show (Ideal.ofBits .f32 0xC2000000#32 * dist (ix2 p q))
      * Ideal.div (Ideal.ofBits .f32 0x3F800000#32) (kDmean dist (ix2 p (0 : Fin 1))) = _
  rw [kDmean_at]
  rfl

theorem kExp_at (dist : FVec Ideal S2048x512 .f32) (p : Fin 2048) (q : Fin 512) :
    kExp dist (ix2 p q) = expK (distRow dist p) q := by
  show Ideal.exp (kLogit dist (ix2 p q)
      - broadcastTo S2048x512 (colMax512 (kLogit dist)) broadcasts_S2048x1_S2048x512 (ix2 p q)) = _
  rw [broadcastTo_a1_ab_apply, colMax512_at, kLogit_at]
  simp only [kLogit_at]
  rfl

theorem kAssign_at (dist : FVec Ideal S2048x512 .f32) (p : Fin 2048) (q : Fin 512) :
    kAssign dist (ix2 p q) = assignK (distRow dist p) q := by
  show kExp dist (ix2 p q)
      * broadcastTo S2048x512 (divf (broadcast S2048x1 (Scalar.ofBits .f32 0x3F800000#32)) (colSum512 (kExp dist)))
          broadcasts_S2048x1_S2048x512 (ix2 p q) = _
  rw [broadcastTo_a1_ab_apply]
  show kExp dist (ix2 p q)
      * Ideal.div (Ideal.ofBits .f32 0x3F800000#32) (colSum512 (kExp dist) (ix2 p (0 : Fin 1))) = _
  rw [colSum512_at]
  simp only [kExp_at]
  rfl

end Cert.SoftAssign.Pay

end
-- ==== Proof.KernelPayOut.lean ====
/-
  What one grid point's body leaves in its three output blocks.

  The body stores three whole blocks: the distances, their soft assignment, and the assignment times the centres.
  Each store covers its block, so the block afterwards is the stored value; the loads are whole blocks too. Row
  `p` of the distances is the clamped one-row specification of row `p` of the input block (the expansion, then
  the maximum with zero, then the square root); the assignment is the second half of the body applied to those
  distances; and the reconstruction at (p, j) is the sum over the centres of the assignment times the centre's
  entry j, the change of float format before the product being the identity on extended reals.
-/
import proofs.«178753_j32066225832561_2_alg».proof.Proof.KernelPayD2
import proofs.«178753_j32066225832561_2_alg».proof.Proof.KernelPayAssign

noncomputable section

namespace Cert.SoftAssign.Pay

open Idealize.ShloMosaic Idealize.ShloMosaic.ValueIdx Cert.SoftAssign Cert.KernelIdeal Cert.KernelIdeal.Gen

theorem hz : (![0, 0] : Fin 2 → Nat) = fun _ => 0 := funext fun a => by fin_cases a <;> rfl

section
variable (x0 : Vec Ideal S2048x256 .f32) (x1 x2 : Vec Ideal S1x256 .f32) (x3 : Vec Ideal S512x256 .f32)
  (x4 : Vec Ideal S256x512 .f32) (x5 : Vec Ideal S1x512 .f32)

/-- The block of distances the body computes from its loads. -/
def kDist : FVec Ideal S2048x512 .f32 := k0_pay1 (kD2 x0 x1 x2 x5 x4) (k0_pay5 (F := Ideal))

theorem out6_eq : out0_6 (F := Ideal) x0 x1 x2 x3 x4 x5 = kDist x0 x1 x2 x4 x5 := by
  unfold out0_6
  rw [View.canon_unit_zero hz]
  simp only [View.ld_unit_zero (S := S2048x256) hz, View.ld_unit_zero (S := S1x256) hz,
    View.ld_unit_zero (S := S1x512) hz, View.ld_unit_zero (S := S256x512) hz]
  rw [pay4_eq]
  rfl

theorem out7_eq : out0_7 (F := Ideal) x0 x1 x2 x3 x4 x5 = kAssign (kDist x0 x1 x2 x4 x5) := by
  unfold out0_7
  rw [View.canon_unit_zero hz]
  simp only [View.ld_unit_zero (S := S2048x256) hz, View.ld_unit_zero (S := S1x256) hz,
    View.ld_unit_zero (S := S1x512) hz, View.ld_unit_zero (S := S256x512) hz]
  rw [pay4_eq, pay2_eq]
  rfl

theorem out8_eq : out0_8 (F := Ideal) x0 x1 x2 x3 x4 x5
    = k0_pay3 (kD2 x0 x1 x2 x5 x4) (k0_pay5 (F := Ideal)) x3 := by
  unfold out0_8
  rw [View.canon_unit_zero hz]
  simp only [View.ld_unit_zero (S := S2048x256) hz, View.ld_unit_zero (S := S1x256) hz,
    View.ld_unit_zero (S := S1x512) hz, View.ld_unit_zero (S := S256x512) hz, View.ld_unit_zero (S := S512x256) hz]
  rw [pay4_eq]

/-- Row `p` of the computed distances is the clamped one-row specification. -/
theorem kDist_at (hT : IsTranspose x3 x4) (hS : IsSqNorms x3 x5) (p : Fin 2048) (q : Fin 512) :
    kDist x0 x1 x2 x4 x5 (ix2 p q) = distK (blkRow x0 p) (oneRow x1) (oneRow x2) (blkCentres x3) q := by
  show Ideal.sqrt (max (kD2 x0 x1 x2 x5 x4 (ix2 p q)) (Ideal.ofBits .f32 0x00000000#32)) = _
  rw [kD2_at x0 x1 x2 x5 x4 (blkCentres x3) hT hS p q, Ideal.ofBits_zero_f32]
  rfl

theorem kDist_row (hT : IsTranspose x3 x4) (hS : IsSqNorms x3 x5) (p : Fin 2048) :
    distRow (kDist x0 x1 x2 x4 x5) p = distK (blkRow x0 p) (oneRow x1) (oneRow x2) (blkCentres x3) :=
  funext fun q => kDist_at x0 x1 x2 x3 x4 x5 hT hS p q

end

theorem out6_spec : Out6Spec := fun x0 x1 x2 x3 x4 x5 hT hS p q => by
  rw [out6_eq]
  exact kDist_at x0 x1 x2 x3 x4 x5 hT hS p q

theorem out7_spec : Out7Spec := fun x0 x1 x2 x3 x4 x5 hT hS p q => by
  rw [out7_eq, kAssign_at, kDist_row x0 x1 x2 x3 x4 x5 hT hS p]

theorem out8_spec : Out8Spec := fun x0 x1 x2 x3 x4 x5 hT hS p j => by
  rw [out8_eq]
  show FloatOps.matmul dot_S2048x512_S512x256_S2048x256_1_0_0_1_n_n none
      (truncf .bf16 (k0_pay2 (kD2 x0 x1 x2 x5 x4) (k0_pay5 (F := Ideal))) bitsLt_bf16_f32 : FVec Ideal S2048x512 .bf16)
      (truncf .bf16 x3 bitsLt_bf16_f32 : FVec Ideal S512x256 .bf16) (constant S2048x256 .f32 0x00000000#32) (ix2 p j) = _
  rw [Cert.GraphConv.matmul_zero_sum (R := 2048) (K := 512) (N := 256) dot_S2048x512_S512x256_S2048x256_1_0_0_1_n_n
    none (by decide) (by decide) (fun _ _ => by rfl) (fun _ _ => by rfl) (fun _ _ => by rfl) (fun _ _ => by rfl)]
  unfold recOf
  refine Finset.sum_congr rfl fun c _ => ?_
  show k0_pay2 (kD2 x0 x1 x2 x5 x4) (k0_pay5 (F := Ideal)) (ix2 p c) * x3 (ix2 c j) = _
  rw [pay2_eq]
  show kAssign (kDist x0 x1 x2 x4 x5) (ix2 p c) * x3 (ix2 c j) = _
  rw [kAssign_at, kDist_row x0 x1 x2 x3 x4 x5 hT hS p]
  rfl

end Cert.SoftAssign.Pay

end
-- ==== Proof.Rows.lean ====
/-
  The three results as functions of the four argument arrays, index by index.

  Row `i` of every result is the one-row specification applied to row `i` of `X` (the [131072, 256] input), to
  the affine parameters `W`, `B` (each [256]) and to the centres `C` ([512, 256]). Each result comes in the two
  spellings of the one-row specification; that the spellings agree is a statement about rows alone.
-/
import proofs.«178753_j32066225832561_2_alg».proof.Proof.Spec
import Idealize.ShloMosaic.Lib.ValueIdx

noncomputable section

namespace Cert.SoftAssign

open Idealize.ShloMosaic Idealize.ShloMosaic.ValueIdx

/-- The shapes of the arguments and of the results. -/
abbrev SX : Shape := ⟨2, ![131072, 256]⟩
abbrev SV : Shape := ⟨1, ![256]⟩
abbrev SC : Shape := ⟨2, ![512, 256]⟩
abbrev SD : Shape := ⟨2, ![131072, 512]⟩

/-- Row `i` of the input. -/
def rowX (X : SX.Idx → EReal) (i : Fin 131072) : Fin 256 → EReal := fun k => X (ix2 i k)
/-- A [256] vector as a row. -/
def vecOf (W : SV.Idx → EReal) : Fin 256 → EReal := fun k => W (ix1 k)
/-- The centres, one row each. -/
def centres (C : SC.Idx → EReal) : Fin 512 → Fin 256 → EReal := fun c k => C (ix2 c k)

variable (X : SX.Idx → EReal) (W B : SV.Idx → EReal) (C : SC.Idx → EReal)

/-- The distances, the expansion clamped at zero first. -/
def distArrK : SD.Idx → EReal := fun i => distK (rowX X (i 0)) (vecOf W) (vecOf B) (centres C) (i 1)
/-- The distances, as the square root of the expansion. -/
def distArrR : SD.Idx → EReal := fun i => distR (rowX X (i 0)) (vecOf W) (vecOf B) (centres C) (i 1)
/-- The soft assignment, reciprocal spelling, of the clamped distances. -/
def assignArrK : SD.Idx → EReal := fun i => assignK (distK (rowX X (i 0)) (vecOf W) (vecOf B) (centres C)) (i 1)
/-- The soft assignment, quotient spelling, of the unclamped distances. -/
def assignArrR : SD.Idx → EReal := fun i => assignR (distR (rowX X (i 0)) (vecOf W) (vecOf B) (centres C)) (i 1)
/-- The reconstruction from the reciprocal-spelling assignment. -/
def recArrK : SX.Idx → EReal := fun i =>
  recOf (assignK (distK (rowX X (i 0)) (vecOf W) (vecOf B) (centres C))) (centres C) (i 1)
/-- The reconstruction from the quotient-spelling assignment. -/
def recArrR : SX.Idx → EReal := fun i =>
  recOf (assignR (distR (rowX X (i 0)) (vecOf W) (vecOf B) (centres C))) (centres C) (i 1)
/-- Row `i`'s mean distance, in the quotient spelling's terms: the divisor that must not vanish. -/
def dmeanArr (i : Fin 131072) : EReal := dmean (distR (rowX X i) (vecOf W) (vecOf B) (centres C))

end Cert.SoftAssign

end
-- ==== Proof.KernelHost.lean ====
/-
  The arrays the kernel region finds where the host wrote them before it.

  Before the one grid region the host lays the affine weight and bias out as [1, 256] rows, transposes the centres,
  and computes the row of the centres' squared norms (the product of the centres with themselves, summed over the
  feature axis from zero, and laid out as a [1, 512] row). Each is read here at an index as a function of the
  argument arrays.
-/
import proofs.«178753_j32066225832561_2_alg».proof.Proof.Rows
import proofs.«178753_j32066225832561_2_alg».proof.Proof.KernelStmt
import proofs.«178753_j32066225832561_2_alg».proof.Proof.Gen.KernelIdeal.Value
import Idealize.ShloMosaic.Lib.Pipeline.Value
import Idealize.ShloMosaic.Lib.ValueLayout
import Idealize.ShloMosaic.Lib.IdealHost

noncomputable section

namespace Cert.SoftAssign.Kernel

open Idealize.ShloMosaic Idealize.ShloMosaic.ValueIdx Idealize.ShloMosaic.TcCoe Idealize.SL.Sem
open Cert.SoftAssign Cert.KernelIdeal Cert.KernelIdeal.Gen
open Idealize.ShloMosaic.Pipeline (Dat)

variable (m : (ℓ : Loc nD τ sig) → Buf (Elt Ideal) ℓ)

/-- The affine weight as the kernel region finds it: the [256] argument laid out as one row. -/
theorem V_v0_at (c : Dev nD) (k : Fin 256) :
    (V m c main_v0 : S1x256.Idx → EReal) (ix2 (0 : Fin 1) k)
      = (m ((c : Thread nD τ).loc main_arg1) : S256.Idx → EReal) (ix1 k) := by
  have e : (V m c main_v0 : S1x256.Idx → EReal)
      = shapeCast S1x256 (m ((c : Thread nD τ).loc main_arg1) : S256.Idx → EReal) shapeCasts_S256_S1x256 := by
    dsimp only [Gen.V, Gen.hostOps0]; after_results; rfl
  rw [e]
  exact shapeCast_a_1a_apply _ _ 0 k

/-- The affine bias likewise. -/
theorem V_v1_at (c : Dev nD) (k : Fin 256) :
    (V m c main_v1 : S1x256.Idx → EReal) (ix2 (0 : Fin 1) k)
      = (m ((c : Thread nD τ).loc main_arg2) : S256.Idx → EReal) (ix1 k) := by
  have e : (V m c main_v1 : S1x256.Idx → EReal)
      = shapeCast S1x256 (m ((c : Thread nD τ).loc main_arg2) : S256.Idx → EReal) shapeCasts_S256_S1x256 := by
    dsimp only [Gen.V, Gen.hostOps0]; after_results; rfl
  rw [e]
  exact shapeCast_a_1a_apply _ _ 0 k

/-- The transposed centres: entry (k, q) is entry (q, k) of the centres. -/
theorem V_v6_at (c : Dev nD) (k : Fin 256) (q : Fin 512) :
    (V m c main_v6 : S256x512.Idx → EReal) (ix2 k q)
      = (m ((c : Thread nD τ).loc main_arg3) : S512x256.Idx → EReal) (ix2 q k) := by
  have e : (V m c main_v6 : S256x512.Idx → EReal)
      = transpose S256x512 [1, 0] (m ((c : Thread nD τ).loc main_arg3) : S512x256.Idx → EReal)
          transposes_S512x256_S256x512_1_0 := by
    dsimp only [Gen.V, Gen.hostOps0]; after_results
  rw [e]
  exact transpose_ix2_apply _ _ k q

/-- The host's squared norms of the rows of a [512, 256] array, laid out as one row: entry q is the sum over k of the
    square of entry (q, k). -/
theorem sqnorm_row_at (A : S512x256.Idx → EReal) (q : Fin 512) :
    (shapeCast S1x512 (broadcastInDim S512x1 ![0] bcast_S512_S512x1_0
        (Host.reduceAdd (F := Ideal) (φ := .f32) (mulf (F := Ideal) (φ := .f32) A A)
          (constant (F := Ideal) S_ .f32 0x00000000#32) reducesTo_S512x256_S512_d1 h_S_))
        shapeCasts_S512x1_S1x512 : S1x512.Idx → EReal) (ix2 (0 : Fin 1) q) = csq (centres A) q := by
  refine (shapeCast_apply _ _ (ix2 (0 : Fin 1) q) (ix2 q (0 : Fin 1)) (by
    rw [Shape.rowMajor_val_two, Shape.rowMajor_val_two]
    show q.val * 1 + 0 = 0 * 512 + q.val
    omega)).trans ?_
  refine (broadcastInDim_apply _ _ _ (ix2 q (0 : Fin 1)) (ix1 q) (fun a => match a with | ⟨0, _⟩ => rfl)).trans ?_
  rw [hostReduceAdd_apply, Ideal.hostReduceAdd_single _ (by decide : S512x256.Reduces [1] S512)]
  have hz : constant (F := Ideal) S_ .f32 0x00000000#32 (Shape.Idx.first h_S_) = 0 := Ideal.ofBits_zero_f32
  rw [hz, zero_add]
  unfold csq centres
  refine Finset.sum_congr rfl fun k _ => ?_
  rw [mulf_apply]
  have hl : (Shape.Reduces.lift (by decide : S512x256.Reduces [1] S512) (ix1 q) k : S512x256.Idx) = ix2 q k :=
    funext fun a => Fin.ext (match a with | ⟨0, _⟩ => rfl | ⟨1, _⟩ => rfl)
  rw [hl]
  rfl

/-- The row of the centres' squared norms as the kernel region finds it. -/
theorem V_v5_at (c : Dev nD) (q : Fin 512) :
    (V m c main_v5 : S1x512.Idx → EReal) (ix2 (0 : Fin 1) q)
      = csq (centres (m ((c : Thread nD τ).loc main_arg3) : S512x256.Idx → EReal)) q := by
  have e : (V m c main_v5 : S1x512.Idx → EReal)
      = shapeCast S1x512 (broadcastInDim S512x1 ![0] bcast_S512_S512x1_0
          (Host.reduceAdd (mulf (m ((c : Thread nD τ).loc main_arg3) : S512x256.Idx → EReal)
              (m ((c : Thread nD τ).loc main_arg3) : S512x256.Idx → EReal))
            (constant (F := Ideal) S_ .f32 0x00000000#32) reducesTo_S512x256_S512_d1 h_S_))
          shapeCasts_S512x1_S1x512 := by
    dsimp only [Gen.V, Gen.hostOps0]; after_results; rfl
  rw [e]
  exact sqnorm_row_at _ q

end Cert.SoftAssign.Kernel

end
-- ==== Proof.KernelBlocks.lean ====
/-
  The kernel program from blocks to whole arrays.

  The one grid region has 64 points; point `t` reads rows `2048 t … 2048 t + 2047` of the input together with the
  whole weight row, bias row, centres, transposed centres and row of squared norms, and writes rows
  `2048 t … 2048 t + 2047` of each of the three results. Given that the body's three output blocks are, row by row, the
  one-row specification of the input block's rows (the hypotheses `Out6Spec`, `Out7Spec`, `Out8Spec`), what each
  point writes back is its block of ONE whole-array function of the four arguments, the blocks cover every row,
  and so each result array ends holding that function.
-/
import proofs.«178753_j32066225832561_2_alg».proof.Proof.KernelHost

noncomputable section

namespace Cert.SoftAssign.Kernel

open Idealize.ShloMosaic Idealize.ShloMosaic.ValueIdx Idealize.ShloMosaic.TcCoe Idealize.SL.Sem
open Cert.SoftAssign Cert.KernelIdeal Cert.KernelIdeal.Gen
open Idealize.ShloMosaic.Pipeline (Dat)

variable (m : (ℓ : Loc nD τ sig) → Buf (Elt Ideal) ℓ)

/-! ## The windows' block indices, decided over the grid -/

/-- Point `t` handles row block `t` of the input and of each result; every other window is its whole array. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0
    ∧ win0_8.index t (0 : Fin 2) = t.val ∧ win0_8.index t (1 : Fin 2) = 0 :=
  (by decide +kernel : ∀ t : Fin grid0.N, _)

/-! ## The input windows' blocks, entry by entry -/

/-- Row `p` of the input block at point `t` is row `2048 t + p` of the input. -/
theorem iblk0_at (c : Dev nD) (t : Fin cfg0.N) (p : Fin 2048) (k : Fin 256) (i : Fin 131072)
    (hi : i.val = 2048 * t.val + p.val) :
    (iblk m c 0 t : Vec Ideal S2048x256 .f32) (ix2 p k) = ((m ((c : Thread nD τ).loc main_arg0)) : SX.Idx → EReal) (ix2 i k) := by
  obtain ⟨h0, h1, -⟩ := idx_facts t
  show V m c main_arg0 (((cfg0.win 0).blk t).view.emb (ix2 p k)) = _
  rw [V_main_arg0]
  congr 1
  funext a
  apply Fin.ext
  match a with
  | ⟨0, _⟩ => show win0_0.index t (0 : Fin 2) * 2048 + 1 * p.val = i.val; rw [h0, hi]; omega
  | ⟨1, _⟩ => show win0_0.index t (1 : Fin 2) * 256 + 1 * k.val = k.val; rw [h1]; omega

/-- The weight row's block is the whole row. -/
theorem iblk1_at (c : Dev nD) (t : Fin cfg0.N) (k : Fin 256) :
    (iblk m c 1 t : Vec Ideal S1x256 .f32) (ix2 (0 : Fin 1) k) = ((m ((c : Thread nD τ).loc main_arg1)) : SV.Idx → EReal) (ix1 k) := by
  obtain ⟨-, -, h0, h1, -⟩ := idx_facts t
  show V m c main_v0 (((cfg0.win 1).blk t).view.emb (ix2 (0 : Fin 1) k)) = _
  refine Eq.trans (congrArg _ ?_) (V_v0_at m c k)
  funext a
  apply Fin.ext
  match a with
  | ⟨0, _⟩ => show win0_1.index t (0 : Fin 2) * 1 + 1 * 0 = 0; rw [h0]
  | ⟨1, _⟩ => show win0_1.index t (1 : Fin 2) * 256 + 1 * k.val = k.val; rw [h1]; omega

/-- The bias row's block is the whole row. -/
theorem iblk2_at (c : Dev nD) (t : Fin cfg0.N) (k : Fin 256) :
    (iblk m c 2 t : Vec Ideal S1x256 .f32) (ix2 (0 : Fin 1) k) = ((m ((c : Thread nD τ).loc main_arg2)) : SV.Idx → EReal) (ix1 k) := by
  obtain ⟨-, -, -, -, h0, h1, -⟩ := idx_facts t
  show V m c main_v1 (((cfg0.win 2).blk t).view.emb (ix2 (0 : Fin 1) k)) = _
  refine Eq.trans (congrArg _ ?_) (V_v1_at m c k)
  funext a
  apply Fin.ext
  match a with
  | ⟨0, _⟩ => show win0_2.index t (0 : Fin 2) * 1 + 1 * 0 = 0; rw [h0]
  | ⟨1, _⟩ => show win0_2.index t (1 : Fin 2) * 256 + 1 * k.val = k.val; rw [h1]; omega

/-- The centres' block is the whole array of centres. -/
theorem iblk3_at (c : Dev nD) (t : Fin cfg0.N) (q : Fin 512) (k : Fin 256) :
    (iblk m c 3 t : Vec Ideal S512x256 .f32) (ix2 q k) = ((m ((c : Thread nD τ).loc main_arg3)) : SC.Idx → EReal) (ix2 q k) := by
  obtain ⟨-, -, -, -, -, -, h0, h1, -⟩ := idx_facts t
  show V m c main_arg3 (((cfg0.win 3).blk t).view.emb (ix2 q k)) = _
  rw [V_main_arg3]
  congr 1
  funext a
  apply Fin.ext
  match a with
  | ⟨0, _⟩ => show win0_3.index t (0 : Fin 2) * 512 + 1 * q.val = q.val; rw [h0]; omega
  | ⟨1, _⟩ => show win0_3.index t (1 : Fin 2) * 256 + 1 * k.val = k.val; rw [h1]; omega

/-- The transposed centres' block is the whole transposed array: entry (k, q) is entry (q, k) of the centres. -/
theorem iblk4_at (c : Dev nD) (t : Fin cfg0.N) (k : Fin 256) (q : Fin 512) :
    (iblk m c 4 t : Vec Ideal S256x512 .f32) (ix2 k q) = ((m ((c : Thread nD τ).loc main_arg3)) : SC.Idx → EReal) (ix2 q k) := by
  obtain ⟨-, -, -, -, -, -, -, -, h0, h1, -⟩ := idx_facts t
  show V m c main_v6 (((cfg0.win 4).blk t).view.emb (ix2 k q)) = _
  refine Eq.trans (congrArg _ ?_) (V_v6_at m c k q)
  funext a
  apply Fin.ext
  match a with
  | ⟨0, _⟩ => show win0_4.index t (0 : Fin 2) * 256 + 1 * k.val = k.val; rw [h0]; omega
  | ⟨1, _⟩ => show win0_4.index t (1 : Fin 2) * 512 + 1 * q.val = q.val; rw [h1]; omega

/-- The squared norms' block is the whole row of the centres' squared norms. -/
theorem iblk5_at (c : Dev nD) (t : Fin cfg0.N) (q : Fin 512) :
    (iblk m c 5 t : Vec Ideal S1x512 .f32) (ix2 (0 : Fin 1) q) = csq (centres ((m ((c : Thread nD τ).loc main_arg3)) : SC.Idx → EReal)) q := by
  obtain ⟨-, -, -, -, -, -, -, -, -, -, h0, h1, -⟩ := idx_facts t
  show V m c main_v5 (((cfg0.win 5).blk t).view.emb (ix2 (0 : Fin 1) q)) = _
  refine Eq.trans (congrArg _ ?_) (V_v5_at m c q)
  funext a
  apply Fin.ext
  match a with
  | ⟨0, _⟩ => show win0_5.index t (0 : Fin 2) * 1 + 1 * 0 = 0; rw [h0]
  | ⟨1, _⟩ => show win0_5.index t (1 : Fin 2) * 512 + 1 * q.val = q.val; rw [h1]; omega

/-! ## The blocks as the one-row specification's arguments -/

theorem blkRow_iblk (c : Dev nD) (t : Fin cfg0.N) (p : Fin 2048) (i : Fin 131072) (hi : i.val = 2048 * t.val + p.val) :
    blkRow (iblk m c 0 t) p = rowX (m ((c : Thread nD τ).loc main_arg0)) i :=
  funext fun k => iblk0_at m c t p k i hi

theorem oneRow_iblk1 (c : Dev nD) (t : Fin cfg0.N) : oneRow (iblk m c 1 t) = vecOf (m ((c : Thread nD τ).loc main_arg1)) :=
  funext fun k => iblk1_at m c t k

theorem oneRow_iblk2 (c : Dev nD) (t : Fin cfg0.N) : oneRow (iblk m c 2 t) = vecOf (m ((c : Thread nD τ).loc main_arg2)) :=
  funext fun k => iblk2_at m c t k

theorem blkCentres_iblk (c : Dev nD) (t : Fin cfg0.N) : blkCentres (iblk m c 3 t) = centres (m ((c : Thread nD τ).loc main_arg3)) :=
  funext fun q => funext fun k => iblk3_at m c t q k

theorem isTranspose_iblk (c : Dev nD) (t : Fin cfg0.N) : IsTranspose (iblk m c 3 t) (iblk m c 4 t) :=
  fun k q => (iblk4_at m c t k q).trans (iblk3_at m c t q k).symm

theorem isSqNorms_iblk (c : Dev nD) (t : Fin cfg0.N) : IsSqNorms (iblk m c 3 t) (iblk m c 5 t) :=
  fun q => (iblk5_at m c t q).trans (by rw [blkCentres_iblk])

/-! ## Output window 6 -/

/-- An index of the array is in point `t`'s block iff each coordinate is in the block's range on its axis. -/
theorem mem_blk6 (t : Fin cfg0.N) (i : S131072x512.Idx) :
    i ∈ ((cfg0.win 6).blk t).view.set ↔ ∀ a : Fin 2, win0_6.index t a * S2048x512.size a ≤ (i a).val ∧ (i a).val < win0_6.index t a * S2048x512.size a + S2048x512.size a := by
  show i ∈ ((View.whole main_v7_0).slice (win0_6.rect t)).set ↔ _
  rw [View.set_slice_whole, Rect.mem_set_unit]
  exact Iff.rfl

/-- Every index of the array is in some point's block: row `r` is in the block of point `r / 2048`. -/
theorem cover6 (i : S131072x512.Idx) :
    ∃ t : Fin cfg0.N, (cfg0.win 6).flush t = true ∧ i ∈ ((cfg0.win 6).blk t).view.set := by
  have hi0 : (i 0).val < 131072 := (i 0).isLt
  have hi1 : (i 1).val < 512 := (i 1).isLt
  have hN : cfg0.N = 64 := N_0
  have ht : (i 0).val / 2048 < cfg0.N := by rw [hN]; omega
  obtain ⟨-, -, -, -, -, -, -, -, -, -, -, -, h60, h61, h70, h71, h80, h81⟩ := idx_facts ⟨(i 0).val / 2048, ht⟩
  refine ⟨⟨(i 0).val / 2048, ht⟩, flush0_6 _, ?_⟩
  rw [mem_blk6]
  intro a
  match a with
  | ⟨0, _⟩ =>
    show win0_6.index ⟨(i 0).val / 2048, ht⟩ (0 : Fin 2) * 2048 ≤ (i 0).val ∧ (i 0).val < win0_6.index ⟨(i 0).val / 2048, ht⟩ (0 : Fin 2) * 2048 + 2048
    rw [h60]
    show (i 0).val / 2048 * 2048 ≤ (i 0).val ∧ (i 0).val < (i 0).val / 2048 * 2048 + 2048
    omega
  | ⟨1, _⟩ =>
    show win0_6.index ⟨(i 0).val / 2048, ht⟩ (1 : Fin 2) * 512 ≤ (i 1).val ∧ (i 1).val < win0_6.index ⟨(i 0).val / 2048, ht⟩ (1 : Fin 2) * 512 + 512
    rw [h61]
    omega

/-- What point `t` writes back is block `t` of the whole-array specification. -/
theorem flushed6_eq (h6 : Out6Spec) (c : Dev nD) (t : Fin cfg0.N) :
    (dats m 0 c).flushed 6 t = ((cfg0.win 6).blk t).view.read (Elt Ideal) (distArrK (m ((c : Thread nD τ).loc main_arg0)) (m ((c : Thread nD τ).loc main_arg1)) (m ((c : Thread nD τ).loc main_arg2)) (m ((c : Thread nD τ).loc main_arg3))) := by
  rw [Value.flushed6]
  funext y
  obtain ⟨p, q, rfl⟩ : ∃ (p : Fin 2048) (q : Fin 512), y = ix2 p q := ⟨y 0, y 1, eq_ix2 y⟩
  obtain ⟨-, -, -, -, -, -, -, -, -, -, -, -, h60, h61, h70, h71, h80, h81⟩ := idx_facts t
  have hN : cfg0.N = 64 := N_0
  have htl : t.val < 64 := hN ▸ t.isLt
  have hrow : 2048 * t.val + p.val < 131072 := by have := p.isLt; omega
  have e0 : (((cfg0.win 6).blk t).view.emb (ix2 p q) : S131072x512.Idx) 0 = (⟨2048 * t.val + p.val, hrow⟩ : Fin 131072) :=
    Fin.ext (by show win0_6.index t (0 : Fin 2) * 2048 + 1 * p.val = 2048 * t.val + p.val; rw [h60]; omega)
  have e1 : (((cfg0.win 6).blk t).view.emb (ix2 p q) : S131072x512.Idx) 1 = q :=
    Fin.ext (by show win0_6.index t (1 : Fin 2) * 512 + 1 * q.val = q.val; rw [h61]; omega)
  show out0_6 (iblk m c 0 t) (iblk m c 1 t) (iblk m c 2 t) (iblk m c 3 t) (iblk m c 4 t) (iblk m c 5 t) (ix2 p q)
    = distArrK (m ((c : Thread nD τ).loc main_arg0)) (m ((c : Thread nD τ).loc main_arg1)) (m ((c : Thread nD τ).loc main_arg2)) (m ((c : Thread nD τ).loc main_arg3)) (((cfg0.win 6).blk t).view.emb (ix2 p q))
  refine (h6 (iblk m c 0 t) (iblk m c 1 t) (iblk m c 2 t) (iblk m c 3 t) (iblk m c 4 t) (iblk m c 5 t)
    (isTranspose_iblk m c t) (isSqNorms_iblk m c t) p q).trans ?_
  rw [blkRow_iblk m c t p ⟨2048 * t.val + p.val, hrow⟩ rfl, oneRow_iblk1, oneRow_iblk2, blkCentres_iblk]
  unfold distArrK
  rw [e0, e1]

/-- The array after the run is the whole-array specification. -/
theorem final6 (h6 : Out6Spec) (c : Dev nD) :
    (dats m 0 c).arrAt 6 cfg0.N = distArrK (m ((c : Thread nD τ).loc main_arg0)) (m ((c : Thread nD τ).loc main_arg1)) (m ((c : Thread nD τ).loc main_arg2)) (m ((c : Thread nD τ).loc main_arg3)) :=
  (dats m 0 c).arrAt_eq_of_cover 6 (distArrK (m ((c : Thread nD τ).loc main_arg0)) (m ((c : Thread nD τ).loc main_arg1)) (m ((c : Thread nD τ).loc main_arg2)) (m ((c : Thread nD τ).loc main_arg3))) (fun t _ => flushed6_eq m h6 c t) cover6

/-! ## Output window 7 -/

/-- An index of the array is in point `t`'s block iff each coordinate is in the block's range on its axis. -/
theorem mem_blk7 (t : Fin cfg0.N) (i : S131072x512.Idx) :
    i ∈ ((cfg0.win 7).blk t).view.set ↔ ∀ a : Fin 2, win0_7.index t a * S2048x512.size a ≤ (i a).val ∧ (i a).val < win0_7.index t a * S2048x512.size a + S2048x512.size a := by
  show i ∈ ((View.whole main_v7_1).slice (win0_7.rect t)).set ↔ _
  rw [View.set_slice_whole, Rect.mem_set_unit]
  exact Iff.rfl

/-- Every index of the array is in some point's block: row `r` is in the block of point `r / 2048`. -/
theorem cover7 (i : S131072x512.Idx) :
    ∃ t : Fin cfg0.N, (cfg0.win 7).flush t = true ∧ i ∈ ((cfg0.win 7).blk t).view.set := by
  have hi0 : (i 0).val < 131072 := (i 0).isLt
  have hi1 : (i 1).val < 512 := (i 1).isLt
  have hN : cfg0.N = 64 := N_0
  have ht : (i 0).val / 2048 < cfg0.N := by rw [hN]; omega
  obtain ⟨-, -, -, -, -, -, -, -, -, -, -, -, h60, h61, h70, h71, h80, h81⟩ := idx_facts ⟨(i 0).val / 2048, ht⟩
  refine ⟨⟨(i 0).val / 2048, ht⟩, flush0_7 _, ?_⟩
  rw [mem_blk7]
  intro a
  match a with
  | ⟨0, _⟩ =>
    show win0_7.index ⟨(i 0).val / 2048, ht⟩ (0 : Fin 2) * 2048 ≤ (i 0).val ∧ (i 0).val < win0_7.index ⟨(i 0).val / 2048, ht⟩ (0 : Fin 2) * 2048 + 2048
    rw [h70]
    show (i 0).val / 2048 * 2048 ≤ (i 0).val ∧ (i 0).val < (i 0).val / 2048 * 2048 + 2048
    omega
  | ⟨1, _⟩ =>
    show win0_7.index ⟨(i 0).val / 2048, ht⟩ (1 : Fin 2) * 512 ≤ (i 1).val ∧ (i 1).val < win0_7.index ⟨(i 0).val / 2048, ht⟩ (1 : Fin 2) * 512 + 512
    rw [h71]
    omega

/-- What point `t` writes back is block `t` of the whole-array specification. -/
theorem flushed7_eq (h7 : Out7Spec) (c : Dev nD) (t : Fin cfg0.N) :
    (dats m 0 c).flushed 7 t = ((cfg0.win 7).blk t).view.read (Elt Ideal) (assignArrK (m ((c : Thread nD τ).loc main_arg0)) (m ((c : Thread nD τ).loc main_arg1)) (m ((c : Thread nD τ).loc main_arg2)) (m ((c : Thread nD τ).loc main_arg3))) := by
  rw [Value.flushed7]
  funext y
  obtain ⟨p, q, rfl⟩ : ∃ (p : Fin 2048) (q : Fin 512), y = ix2 p q := ⟨y 0, y 1, eq_ix2 y⟩
  obtain ⟨-, -, -, -, -, -, -, -, -, -, -, -, h60, h61, h70, h71, h80, h81⟩ := idx_facts t
  have hN : cfg0.N = 64 := N_0
  have htl : t.val < 64 := hN ▸ t.isLt
  have hrow : 2048 * t.val + p.val < 131072 := by have := p.isLt; omega
  have e0 : (((cfg0.win 7).blk t).view.emb (ix2 p q) : S131072x512.Idx) 0 = (⟨2048 * t.val + p.val, hrow⟩ : Fin 131072) :=
    Fin.ext (by show win0_7.index t (0 : Fin 2) * 2048 + 1 * p.val = 2048 * t.val + p.val; rw [h70]; omega)
  have e1 : (((cfg0.win 7).blk t).view.emb (ix2 p q) : S131072x512.Idx) 1 = q :=
    Fin.ext (by show win0_7.index t (1 : Fin 2) * 512 + 1 * q.val = q.val; rw [h71]; omega)
  show out0_7 (iblk m c 0 t) (iblk m c 1 t) (iblk m c 2 t) (iblk m c 3 t) (iblk m c 4 t) (iblk m c 5 t) (ix2 p q)
    = assignArrK (m ((c : Thread nD τ).loc main_arg0)) (m ((c : Thread nD τ).loc main_arg1)) (m ((c : Thread nD τ).loc main_arg2)) (m ((c : Thread nD τ).loc main_arg3)) (((cfg0.win 7).blk t).view.emb (ix2 p q))
  refine (h7 (iblk m c 0 t) (iblk m c 1 t) (iblk m c 2 t) (iblk m c 3 t) (iblk m c 4 t) (iblk m c 5 t)
    (isTranspose_iblk m c t) (isSqNorms_iblk m c t) p q).trans ?_
  rw [blkRow_iblk m c t p ⟨2048 * t.val + p.val, hrow⟩ rfl, oneRow_iblk1, oneRow_iblk2, blkCentres_iblk]
  unfold assignArrK
  rw [e0, e1]

/-- The array after the run is the whole-array specification. -/
theorem final7 (h7 : Out7Spec) (c : Dev nD) :
    (dats m 0 c).arrAt 7 cfg0.N = assignArrK (m ((c : Thread nD τ).loc main_arg0)) (m ((c : Thread nD τ).loc main_arg1)) (m ((c : Thread nD τ).loc main_arg2)) (m ((c : Thread nD τ).loc main_arg3)) :=
  (dats m 0 c).arrAt_eq_of_cover 7 (assignArrK (m ((c : Thread nD τ).loc main_arg0)) (m ((c : Thread nD τ).loc main_arg1)) (m ((c : Thread nD τ).loc main_arg2)) (m ((c : Thread nD τ).loc main_arg3))) (fun t _ => flushed7_eq m h7 c t) cover7

/-! ## Output window 8 -/

/-- An index of the array is in point `t`'s block iff each coordinate is in the block's range on its axis. -/
theorem mem_blk8 (t : Fin cfg0.N) (i : S131072x256.Idx) :
    i ∈ ((cfg0.win 8).blk t).view.set ↔ ∀ a : Fin 2, win0_8.index t a * S2048x256.size a ≤ (i a).val ∧ (i a).val < win0_8.index t a * S2048x256.size a + S2048x256.size a := by
  show i ∈ ((View.whole main_v7_2).slice (win0_8.rect t)).set ↔ _
  rw [View.set_slice_whole, Rect.mem_set_unit]
  exact Iff.rfl

/-- Every index of the array is in some point's block: row `r` is in the block of point `r / 2048`. -/
theorem cover8 (i : S131072x256.Idx) :
    ∃ t : Fin cfg0.N, (cfg0.win 8).flush t = true ∧ i ∈ ((cfg0.win 8).blk t).view.set := by
  have hi0 : (i 0).val < 131072 := (i 0).isLt
  have hi1 : (i 1).val < 256 := (i 1).isLt
  have hN : cfg0.N = 64 := N_0
  have ht : (i 0).val / 2048 < cfg0.N := by rw [hN]; omega
  obtain ⟨-, -, -, -, -, -, -, -, -, -, -, -, h60, h61, h70, h71, h80, h81⟩ := idx_facts ⟨(i 0).val / 2048, ht⟩
  refine ⟨⟨(i 0).val / 2048, ht⟩, flush0_8 _, ?_⟩
  rw [mem_blk8]
  intro a
  match a with
  | ⟨0, _⟩ =>
    show win0_8.index ⟨(i 0).val / 2048, ht⟩ (0 : Fin 2) * 2048 ≤ (i 0).val ∧ (i 0).val < win0_8.index ⟨(i 0).val / 2048, ht⟩ (0 : Fin 2) * 2048 + 2048
    rw [h80]
    show (i 0).val / 2048 * 2048 ≤ (i 0).val ∧ (i 0).val < (i 0).val / 2048 * 2048 + 2048
    omega
  | ⟨1, _⟩ =>
    show win0_8.index ⟨(i 0).val / 2048, ht⟩ (1 : Fin 2) * 256 ≤ (i 1).val ∧ (i 1).val < win0_8.index ⟨(i 0).val / 2048, ht⟩ (1 : Fin 2) * 256 + 256
    rw [h81]
    omega

/-- What point `t` writes back is block `t` of the whole-array specification. -/
theorem flushed8_eq (h8 : Out8Spec) (c : Dev nD) (t : Fin cfg0.N) :
    (dats m 0 c).flushed 8 t = ((cfg0.win 8).blk t).view.read (Elt Ideal) (recArrK (m ((c : Thread nD τ).loc main_arg0)) (m ((c : Thread nD τ).loc main_arg1)) (m ((c : Thread nD τ).loc main_arg2)) (m ((c : Thread nD τ).loc main_arg3))) := by
  rw [Value.flushed8]
  funext y
  obtain ⟨p, q, rfl⟩ : ∃ (p : Fin 2048) (q : Fin 256), y = ix2 p q := ⟨y 0, y 1, eq_ix2 y⟩
  obtain ⟨-, -, -, -, -, -, -, -, -, -, -, -, h60, h61, h70, h71, h80, h81⟩ := idx_facts t
  have hN : cfg0.N = 64 := N_0
  have htl : t.val < 64 := hN ▸ t.isLt
  have hrow : 2048 * t.val + p.val < 131072 := by have := p.isLt; omega
  have e0 : (((cfg0.win 8).blk t).view.emb (ix2 p q) : S131072x256.Idx) 0 = (⟨2048 * t.val + p.val, hrow⟩ : Fin 131072) :=
    Fin.ext (by show win0_8.index t (0 : Fin 2) * 2048 + 1 * p.val = 2048 * t.val + p.val; rw [h80]; omega)
  have e1 : (((cfg0.win 8).blk t).view.emb (ix2 p q) : S131072x256.Idx) 1 = q :=
    Fin.ext (by show win0_8.index t (1 : Fin 2) * 256 + 1 * q.val = q.val; rw [h81]; omega)
  show out0_8 (iblk m c 0 t) (iblk m c 1 t) (iblk m c 2 t) (iblk m c 3 t) (iblk m c 4 t) (iblk m c 5 t) (ix2 p q)
    = recArrK (m ((c : Thread nD τ).loc main_arg0)) (m ((c : Thread nD τ).loc main_arg1)) (m ((c : Thread nD τ).loc main_arg2)) (m ((c : Thread nD τ).loc main_arg3)) (((cfg0.win 8).blk t).view.emb (ix2 p q))
  refine (h8 (iblk m c 0 t) (iblk m c 1 t) (iblk m c 2 t) (iblk m c 3 t) (iblk m c 4 t) (iblk m c 5 t)
    (isTranspose_iblk m c t) (isSqNorms_iblk m c t) p q).trans ?_
  rw [blkRow_iblk m c t p ⟨2048 * t.val + p.val, hrow⟩ rfl, oneRow_iblk1, oneRow_iblk2, blkCentres_iblk]
  unfold recArrK
  rw [e0, e1]

/-- The array after the run is the whole-array specification. -/
theorem final8 (h8 : Out8Spec) (c : Dev nD) :
    (dats m 0 c).arrAt 8 cfg0.N = recArrK (m ((c : Thread nD τ).loc main_arg0)) (m ((c : Thread nD τ).loc main_arg1)) (m ((c : Thread nD τ).loc main_arg2)) (m ((c : Thread nD τ).loc main_arg3)) :=
  (dats m 0 c).arrAt_eq_of_cover 8 (recArrK (m ((c : Thread nD τ).loc main_arg0)) (m ((c : Thread nD τ).loc main_arg1)) (m ((c : Thread nD τ).loc main_arg2)) (m ((c : Thread nD τ).loc main_arg3))) (fun t _ => flushed8_eq m h8 c t) cover8

/-! ## The run -/

/-- Every execution of the kernel program ends with the three results at the whole-array specifications (clamped
    distances, reciprocal spelling) of the argument arrays, and the arguments as launched. -/
theorem kernel_run (h6 : Out6Spec) (h7 : Out7Spec) (h8 : Out8Spec) (ρ : Dev nD → PrngReg) :
    θ_run defs (onTc (τ := τ) (main (F := Ideal))) ⟨m, fun _ => 0, ρ⟩ fun r => ∀ c : Dev nD,
      r.2.mem ((c : Thread nD τ).loc main_v7_0) = distArrK (m ((c : Thread nD τ).loc main_arg0)) (m ((c : Thread nD τ).loc main_arg1)) (m ((c : Thread nD τ).loc main_arg2)) (m ((c : Thread nD τ).loc main_arg3))
      ∧ r.2.mem ((c : Thread nD τ).loc main_v7_1) = assignArrK (m ((c : Thread nD τ).loc main_arg0)) (m ((c : Thread nD τ).loc main_arg1)) (m ((c : Thread nD τ).loc main_arg2)) (m ((c : Thread nD τ).loc main_arg3))
      ∧ r.2.mem ((c : Thread nD τ).loc main_v7_2) = recArrK (m ((c : Thread nD τ).loc main_arg0)) (m ((c : Thread nD τ).loc main_arg1)) (m ((c : Thread nD τ).loc main_arg2)) (m ((c : Thread nD τ).loc main_arg3))
      ∧ r.2.mem ((c : Thread nD τ).loc main_arg0) = (m ((c : Thread nD τ).loc main_arg0))
      ∧ r.2.mem ((c : Thread nD τ).loc main_arg1) = (m ((c : Thread nD τ).loc main_arg1))
      ∧ r.2.mem ((c : Thread nD τ).loc main_arg2) = (m ((c : Thread nD τ).loc main_arg2))
      ∧ r.2.mem ((c : Thread nD τ).loc main_arg3) = (m ((c : Thread nD τ).loc main_arg3)) :=
  (θ_run defs _ _).mono (fun r h c => ⟨(h c).1.trans (final6 m h6 c), (h c).2.1.trans (final7 m h7 c),
      (h c).2.2.1.trans (final8 m h8 c), (h c).2.2.2⟩)
    (Value.run_blocks m ρ)

end Cert.SoftAssign.Kernel

end
-- ==== Proof.RefDist.lean ====
/-
  The reference program's distances, read index by index on the extended reals.

  The program normalises each row of the input, takes the squared distance of the normalised row to each of the 512
  centres by the expansion of the square, and takes the square root. Here each of its stages is read at an index and
  identified with the one-row specification applied to that row: the normalised row, the squared distances, the
  distances (the first result) and their row mean.
-/
import proofs.«178753_j32066225832561_2_alg».proof.Proof.Rows
import proofs.«178753_j32066225832561_2_alg».proof.Proof.Gen.ReferenceIdeal.Read

noncomputable section

namespace Cert.SoftAssign.Ref

open Idealize.ShloMosaic Idealize.ShloMosaic.ValueIdx Cert.SoftAssign Cert.ReferenceIdeal Cert.ReferenceIdeal.Read

variable (X : SX.Idx → EReal) (W B : SV.Idx → EReal) (C : SC.Idx → EReal)

/-- Two indices of rank two with the same coordinates are equal. -/
local macro "idx_eq2" : tactic =>
  `(tactic| exact funext fun a => Fin.ext (by match a with | ⟨0, _⟩ => rfl | ⟨1, _⟩ => rfl))
/-- Two indices of rank one with the same coordinate are equal. -/
local macro "idx_eq1" : tactic =>
  `(tactic| exact funext fun a => Fin.ext (by match a with | ⟨0, _⟩ => rfl))

/-! ## The normalised row

Every stage is read at an index built from coordinates: `ix2 p k` (row `p`, column `k`), `ix2 p q` with
`q : Fin 1` for a kept-dimension column, `ix1 p` for a reduced row. A sum starts from the zero word, which is `0`. -/

/-- Row `p`'s sum. -/
theorem v0_at (p : Fin 131072) : val_main_v0 (F := Ideal) X (ix1 p) = ∑ k, rowX X p k := by
  rw [val_main_v0_apply, val_main_cst_apply]
  simp only [Ideal.ofBits_def, Ideal.ofBits_zero_f32, zero_add]
  exact Finset.sum_congr rfl fun k _ => congrArg X (by idx_eq2)

/-- Row `p`'s mean, kept as a column. -/
theorem v3_at (p : Fin 131072) (q : Fin 1) : val_main_v3 (F := Ideal) X (ix2 p q) = mean (rowX X p) := by
  rw [val_main_v3_apply, val_main_v1_apply, val_main_v2_apply, val_main_cst_0_apply,
    show idx_main_v1 (ix2 p q) = ix1 p from by idx_eq1, v0_at]
  rfl

/-- The centred row (the copy that is squared). -/
theorem v5_at (p : Fin 131072) (k : Fin 256) : val_main_v5 (F := Ideal) X (ix2 p k) = diff (rowX X p) k := by
  rw [val_main_v5_apply, val_main_v4_apply, show idx_main_v4 (ix2 p k) = ix2 p (0 : Fin 1) from by idx_eq2, v3_at]
  rfl

/-- The sum of the centred row's squares. -/
theorem v7_at (p : Fin 131072) :
    val_main_v7 (F := Ideal) X (ix1 p) = ∑ k, diff (rowX X p) k * diff (rowX X p) k := by
  rw [val_main_v7_apply, val_main_cst_1_apply]
  simp only [Ideal.ofBits_def, Ideal.ofBits_zero_f32, zero_add]
  refine Finset.sum_congr rfl fun k _ => ?_
  rw [show idx_main_v7 (ix1 p) k = ix2 p k from by idx_eq2, val_main_v6_apply, v5_at]
  rfl

/-- Row `p`'s biased variance, kept as a column. -/
theorem v10_at (p : Fin 131072) (q : Fin 1) : val_main_v10 (F := Ideal) X (ix2 p q) = var (rowX X p) := by
  rw [val_main_v10_apply, val_main_v8_apply, val_main_v9_apply, val_main_cst_2_apply,
    show idx_main_v8 (ix2 p q) = ix1 p from by idx_eq1, v7_at]
  rfl

/-- The divisor: the standard deviation plus the epsilon. -/
theorem v15_at (p : Fin 131072) (q : Fin 1) : val_main_v15 (F := Ideal) X (ix2 p q) = den (rowX X p) := by
  rw [val_main_v15_apply, val_main_v11_apply, val_main_v14_apply, val_main_cst_3_apply, v10_at]
  rfl

/-- The centred row (the copy that is divided). -/
theorem v13_at (p : Fin 131072) (k : Fin 256) : val_main_v13 (F := Ideal) X (ix2 p k) = diff (rowX X p) k := by
  rw [val_main_v13_apply, val_main_v12_apply, show idx_main_v12 (ix2 p k) = ix2 p (0 : Fin 1) from by idx_eq2, v3_at]
  rfl

/-- The normalised row. -/
theorem v23_at (p : Fin 131072) (k : Fin 256) :
    val_main_v23 (F := Ideal) X W B (ix2 p k) = xn (rowX X p) (vecOf W) (vecOf B) k := by
  rw [val_main_v23_apply, val_main_v20_apply, val_main_v17_apply, v13_at, val_main_v16_apply,
    show idx_main_v16 (ix2 p k) = ix2 p (0 : Fin 1) from by idx_eq2, v15_at,
    val_main_v19_apply, val_main_v18_apply, val_main_v22_apply, val_main_v21_apply,
    show idx_main_v18 (idx_main_v19 (ix2 p k)) = ix1 k from by idx_eq1,
    show idx_main_v21 (idx_main_v22 (ix2 p k)) = ix1 k from by idx_eq1]
  rfl

/-! ## The squared distances by the expansion -/

/-- The normalised row's squared norm. -/
theorem v25_at (p : Fin 131072) :
    val_main_v25 (F := Ideal) X W B (ix1 p) = xsq (rowX X p) (vecOf W) (vecOf B) := by
  rw [val_main_v25_apply, val_main_cst_4_apply]
  simp only [Ideal.ofBits_def, Ideal.ofBits_zero_f32, zero_add]
  unfold xsq
  refine Finset.sum_congr rfl fun k _ => ?_
  rw [show idx_main_v25 (ix1 p) k = ix2 p k from by idx_eq2, val_main_v24_apply, v23_at]
  rfl

/-- Centre `c`'s squared norm. -/
theorem v28_at (c : Fin 512) : val_main_v28 (F := Ideal) C (ix1 c) = csq (centres C) c := by
  rw [val_main_v28_apply, val_main_cst_5_apply]
  simp only [Ideal.ofBits_def, Ideal.ofBits_zero_f32, zero_add]
  unfold csq
  refine Finset.sum_congr rfl fun k _ => ?_
  rw [show idx_main_v28 (ix1 c) k = ix2 c k from by idx_eq2, val_main_v27_apply]
  rfl

/-- The two squared norms, added. -/
theorem v32_at (p : Fin 131072) (c : Fin 512) :
    val_main_v32 (F := Ideal) X W B C (ix2 p c)
      = xsq (rowX X p) (vecOf W) (vecOf B) + csq (centres C) c := by
  rw [val_main_v32_apply, val_main_v30_apply, val_main_v26_apply, val_main_v31_apply, val_main_v29_apply,
    show idx_main_v26 (idx_main_v30 (ix2 p c)) = ix1 p from by idx_eq1, v25_at,
    show idx_main_v29 (idx_main_v31 (ix2 p c)) = ix1 c from by idx_eq1, v28_at]
  rfl

/-- The inner product of the normalised row with centre `c`. -/
theorem v34_at (p : Fin 131072) (c : Fin 512) :
    val_main_v34 (F := Ideal) X W B C (ix2 p c) = dot (rowX X p) (vecOf W) (vecOf B) (centres C) c := by
  rw [val_main_v34_apply]
  unfold dot
  refine Finset.sum_congr rfl fun k _ => ?_
  rw [show lidx_main_v34 (ix2 p c) k = ix2 p k from by idx_eq2, v23_at, val_main_v33_apply,
    show idx_main_v33 (ridx_main_v34 (ix2 p c) k) = ix2 c k from by idx_eq2]
  rfl

/-- The squared distance to centre `c`. -/
theorem v37_at (p : Fin 131072) (c : Fin 512) :
    val_main_v37 (F := Ideal) X W B C (ix2 p c) = d2 (rowX X p) (vecOf W) (vecOf B) (centres C) c := by
  rw [val_main_v37_apply, v32_at, val_main_v36_apply, val_main_v35_apply, val_main_cst_6_apply, v34_at]
  rfl

/-! ## The distances and their row mean -/

/-- The distance to centre `c`. -/
theorem v38_at (p : Fin 131072) (c : Fin 512) :
    val_main_v38 (F := Ideal) X W B C (ix2 p c) = distR (rowX X p) (vecOf W) (vecOf B) (centres C) c := by
  rw [val_main_v38_apply, v37_at]
  rfl

/-- The first result: the array of distances. -/
theorem v38_eq : val_main_v38 (F := Ideal) X W B C = distArrR X W B C := by
  funext i
  obtain ⟨p, c, rfl⟩ : ∃ (p : Fin 131072) (c : Fin 512), i = ix2 p c := ⟨i 0, i 1, eq_ix2 i⟩
  rw [v38_at]
  rfl

/-- The sum of row `p`'s distances. -/
theorem v39_at (p : Fin 131072) :
    val_main_v39 (F := Ideal) X W B C (ix1 p) = ∑ c, distR (rowX X p) (vecOf W) (vecOf B) (centres C) c := by
  rw [val_main_v39_apply, val_main_cst_7_apply]
  simp only [Ideal.ofBits_def, Ideal.ofBits_zero_f32, zero_add]
  refine Finset.sum_congr rfl fun c _ => ?_
  rw [show idx_main_v39 (ix1 p) c = ix2 p c from by idx_eq2, v38_at]

/-- Row `i`'s mean distance, kept as a column. -/
theorem v42_col (i : Fin 131072) (q : Fin 1) : val_main_v42 (F := Ideal) X W B C (ix2 i q) = dmeanArr X W B C i := by
  rw [val_main_v42_apply, val_main_v40_apply, val_main_v41_apply, val_main_cst_8_apply,
    show idx_main_v40 (ix2 i q) = ix1 i from by idx_eq1, v39_at]
  rfl

/-- Row `i`'s mean distance: the divisor of the soft assignment. -/
theorem v42_at (i : Fin 131072) : val_main_v42 (F := Ideal) X W B C (ix2 i (0 : Fin 1)) = dmeanArr X W B C i :=
  v42_col X W B C i 0

end Cert.SoftAssign.Ref

end
-- ==== Proof.RefAssign.lean ====
/-
  The reference program's soft assignment, read index by index on the extended reals.

  From a row of distances the program takes the distance over the row's mean, times -32; subtracts the row's maximum
  (a fold of `max` from minus infinity, taken once more with minus infinity); exponentiates; and divides by the row's
  sum. Each stage is read at an index and identified with the one-row specification applied to the row's distances.
-/
import proofs.«178753_j32066225832561_2_alg».proof.Proof.Rows
import proofs.«178753_j32066225832561_2_alg».proof.Proof.Gen.ReferenceIdeal.Read
import proofs.«178753_j32066225832561_2_alg».proof.Proof.RefDist

noncomputable section

namespace Cert.SoftAssign.Ref

open Idealize.ShloMosaic Idealize.ShloMosaic.ValueIdx Cert.SoftAssign Cert.ReferenceIdeal Cert.ReferenceIdeal.Read

variable (X : SX.Idx → EReal) (W B : SV.Idx → EReal) (C : SC.Idx → EReal)

/-- Two indices of rank two with the same coordinates are equal. -/
local macro "idx_eq2" : tactic =>
  `(tactic| exact funext fun a => Fin.ext (by match a with | ⟨0, _⟩ => rfl | ⟨1, _⟩ => rfl))
/-- Two indices of rank one with the same coordinate are equal. -/
local macro "idx_eq1" : tactic =>
  `(tactic| exact funext fun a => Fin.ext (by match a with | ⟨0, _⟩ => rfl))

/-- Row `p`'s distances, as the one-row specification spells them. -/
abbrev dRow (p : Fin 131072) : Fin 512 → EReal := distR (rowX X p) (vecOf W) (vecOf B) (centres C)

/-- The word `0xFF800000` is minus infinity. -/
theorem ofBits_negInf_word : Ideal.ofBits .f32 0xFF800000#32 = (⊥ : EReal) := by
  simp [Ideal.ofBits, Ideal.ieee]

/-! ## The scaled negative distances -/

/-- The distance over the row's mean distance. -/
theorem v44_at (p : Fin 131072) (c : Fin 512) :
    val_main_v44 (F := Ideal) X W B C (ix2 p c) = Ideal.div (dRow X W B C p c) (dmean (dRow X W B C p)) := by
  rw [val_main_v44_apply, v38_at, val_main_v43_apply,
    show idx_main_v43 (ix2 p c) = ix2 p (0 : Fin 1) from by idx_eq2, v42_col]
  rfl

/-- The scaled negative distance. -/
theorem v46_at (p : Fin 131072) (c : Fin 512) :
    val_main_v46 (F := Ideal) X W B C (ix2 p c) = logitR (dRow X W B C p) c := by
  rw [val_main_v46_apply, val_main_v45_apply, val_main_cst_9_apply, v44_at]
  rfl

/-! ## The row maximum

The one stage with no generated reading: a reduction with a maximum body over the second axis, from minus infinity. Over
one axis it is the fold of `max` over that axis's 512 coordinates. -/

/-- Row `p` with column `k` put back is `(p, k)`. -/
theorem lift_row (h : S131072x512.Reduces [(1 : Fin 2)] S131072) (p : Fin 131072) (k : Fin 512) :
    h.lift (ix1 p) k = ix2 p k := by
  funext c; apply Fin.ext
  fin_cases c <;> rfl

/-- The row maximum of the scaled negative distances. -/
theorem v47_at (p : Fin 131072) :
    val_main_v47 (F := Ideal) X W B C (ix1 p) = rowmax (logitR (dRow X W B C p)) := by
  have h46 : ∀ c, val_main_v46 (F := Ideal) X W B C (ix2 p c) = logitR (dRow X W B C p) c := v46_at X W B C p
  unfold val_main_v47
  generalize val_main_v46 (F := Ideal) X W B C = y at h46 ⊢
  have h : S131072x512.Reduces [(1 : Fin 2)] S131072 := by decide
  rw [Host.reduce_eq_fold_single (FloatOps.maximumf (F := Ideal) (φ := .f32)) y (val_main_cst_10 (F := Ideal))
    Gen.reducesTo_S131072x512_S131072_d1 h Gen.h_S_ (ix1 p)]
  have hf : (y ∘ h.lift (ix1 p)) = logitR (dRow X W B C p) :=
    funext fun k => (congrArg y (lift_row h p k)).trans (h46 k)
  have hi : val_main_cst_10 (F := Ideal) (Shape.Idx.first Gen.h_S_) = (⊥ : EReal) := ofBits_negInf_word
  rw [hi]
  exact congrArg (fun f => Finset.fold max (⊥ : EReal) f (Finset.univ : Finset (Fin 512))) hf

/-- The maximum taken once more with minus infinity. -/
theorem v49_at (p : Fin 131072) :
    val_main_v49 (F := Ideal) X W B C (ix1 p) = max ⊥ (rowmax (logitR (dRow X W B C p))) := by
  rw [val_main_v49_apply, val_main_v48_apply, val_main_cst_11_apply, v47_at]
  exact congrArg (fun t => max t (rowmax (logitR (dRow X W B C p)))) ofBits_negInf_word

/-! ## The shifted exponentials and their normalisation -/

/-- The shifted exponential. -/
theorem v53_at (p : Fin 131072) (c : Fin 512) :
    val_main_v53 (F := Ideal) X W B C (ix2 p c) = expR (dRow X W B C p) c := by
  rw [val_main_v53_apply, val_main_v52_apply, v46_at, val_main_v51_apply, val_main_v50_apply,
    show idx_main_v50 (idx_main_v51 (ix2 p c)) = ix1 p from by idx_eq1, v49_at]
  rfl

/-- The row's sum of shifted exponentials. -/
theorem v54_at (p : Fin 131072) :
    val_main_v54 (F := Ideal) X W B C (ix1 p) = ∑ c, expR (dRow X W B C p) c := by
  rw [val_main_v54_apply, val_main_cst_12_apply]
  simp only [Ideal.ofBits_def, Ideal.ofBits_zero_f32, zero_add]
  refine Finset.sum_congr rfl fun c _ => ?_
  rw [show idx_main_v54 (ix1 p) c = ix2 p c from by idx_eq2, v53_at]

/-- The soft assignment of row `p` to centre `c`. -/
theorem v57_at (p : Fin 131072) (c : Fin 512) :
    val_main_v57 (F := Ideal) X W B C (ix2 p c) = assignR (dRow X W B C p) c := by
  rw [val_main_v57_apply, v53_at, val_main_v56_apply, val_main_v55_apply,
    show idx_main_v55 (idx_main_v56 (ix2 p c)) = ix1 p from by idx_eq1, v54_at]
  rfl

/-- The second result: the array of soft assignments. -/
theorem v57_eq : val_main_v57 (F := Ideal) X W B C = assignArrR X W B C := by
  funext i
  obtain ⟨p, c, rfl⟩ : ∃ (p : Fin 131072) (c : Fin 512), i = ix2 p c := ⟨i 0, i 1, eq_ix2 i⟩
  rw [v57_at]
  rfl

end Cert.SoftAssign.Ref

end
-- ==== Proof.RefRec.lean ====
/-
  The reference program's reconstruction, read index by index on the extended reals.

  The last operation contracts the array of soft assignments with the centres over the 512 centres: at row `p` and
  column `j` it is the sum over `c` of the assignment of row `p` to centre `c` times centre `c`'s entry `j`.
-/
import proofs.«178753_j32066225832561_2_alg».proof.Proof.Rows
import proofs.«178753_j32066225832561_2_alg».proof.Proof.Gen.ReferenceIdeal.Read
import proofs.«178753_j32066225832561_2_alg».proof.Proof.RefAssign

noncomputable section

namespace Cert.SoftAssign.Ref

open Idealize.ShloMosaic Idealize.ShloMosaic.ValueIdx Cert.SoftAssign Cert.ReferenceIdeal Cert.ReferenceIdeal.Read

variable (X : SX.Idx → EReal) (W B : SV.Idx → EReal) (C : SC.Idx → EReal)

/-- Two indices of rank two with the same coordinates are equal. -/
local macro "idx_eq2" : tactic =>
  `(tactic| exact funext fun a => Fin.ext (by match a with | ⟨0, _⟩ => rfl | ⟨1, _⟩ => rfl))

/-- The reconstruction of row `p` at column `j`: the assignment row times column `j` of the centres. -/
theorem v58_at (p : Fin 131072) (j : Fin 256) :
    val_main_v58 (F := Ideal) X W B C (ix2 p j) = recOf (assignR (dRow X W B C p)) (centres C) j := by
  rw [val_main_v58_apply]
  unfold recOf
  refine Finset.sum_congr rfl fun c _ => ?_
  rw [show lidx_main_v58 (ix2 p j) c = ix2 p c from by idx_eq2, v57_at,
    show ridx_main_v58 (ix2 p j) c = ix2 c j from by idx_eq2]
  rfl

/-- The third result: the array of reconstructions. -/
theorem v58_eq : val_main_v58 (F := Ideal) X W B C = recArrR X W B C := by
  funext i
  obtain ⟨p, j, rfl⟩ : ∃ (p : Fin 131072) (j : Fin 256), i = ix2 p j := ⟨i 0, i 1, eq_ix2 i⟩
  rw [v58_at]
  rfl

end Cert.SoftAssign.Ref

end
-- ==== Proof.RefValue.lean ====
/-
  The reference program's three results and its row mean of distances, read index by index on the extended reals:
  the distances (`v38_eq`), each row's mean distance (`v42_at`), the soft assignments (`v57_eq`) and the
  reconstructions (`v58_eq`), each equal to the one-row specification applied row by row.
-/
import proofs.«178753_j32066225832561_2_alg».proof.Proof.RefDist
import proofs.«178753_j32066225832561_2_alg».proof.Proof.RefAssign
import proofs.«178753_j32066225832561_2_alg».proof.Proof.RefRec
-- ==== Proof.PreDecode.lean ====
/-
  What the precondition gives. The precondition is the conjunction of five tests on the four argument
  arrays: |x| < +∞ at every entry of each array, and 0 < d at every row, where d is the reference's own
  row mean of distances. Read back: every entry of each array is a real, and the reference's row mean is
  above zero at every row.
-/
import proofs.«178753_j32066225832561_2_alg».proof.Defs
import proofs.«178753_j32066225832561_2_alg».proof.Proof.Gen.Pre_finite_inputs
import proofs.«178753_j32066225832561_2_alg».proof.Proof.Gen.KernelIdeal
import proofs.«178753_j32066225832561_2_alg».proof.Proof.Gen.ReferenceIdeal.Read
import Idealize.ShloMosaic.Lib.ReduceAll

noncomputable section

namespace Cert.SoftAssign.PreDecode

open Idealize.ShloMosaic Idealize.ShloMosaic.TcCoe Idealize.SL.Sem
open Cert.Pre_finite_inputs.Gen

/-- A shape of rank zero has one index. -/
instance subsingleton_S_ : Subsingleton Cert.Pre_finite_inputs.S_.Idx := ⟨fun a b => funext fun d => d.elim0⟩

/-- The word 0x7F800000 is +∞. -/
theorem ofBits_inf : Ideal.ofBits .f32 0x7F800000#32 = (⊤ : EReal) := by simp [Ideal.ofBits, Ideal.ieee]

/-- An extended real whose absolute value max a (-a) is below +∞ is a real. -/
theorem real_of_abs_lt (a : EReal)
    (h : FloatOps.cmpf (F := Ideal) (φ := .f32) .olt (FloatOps.hostAbsf (F := Ideal) (φ := .f32) a) (FloatOps.ofBits (F := Ideal) .f32 0x7F800000#32) = 1#1) :
    ∃ r : ℝ, a = (r : EReal) := by
  rw [Ideal.cmpf_def, Ideal.hostAbsf_def, Ideal.absf_def, Ideal.ofBits_def, ofBits_inf] at h
  induction a using EReal.rec with
  | bot => simp [Ideal.cmp] at h
  | top => simp [Ideal.cmp] at h
  | coe r => exact ⟨r, rfl⟩

open Cert.Pre_finite_inputs in
/-- The test "|x| < +∞ at every entry" of an array, as the precondition spells it: the conjunction over all
    entries of the comparison of max x (-x) with the word of +∞. -/
def allFinite {s : Shape} {axes : List (Fin s.rank)} (hb : S_.BroadcastsInDim s (![] : Fin 0 → Fin s.rank))
    (hr : s.ReducesTo axes S_) (x : FVec Ideal s .f32) : IVec S_ 1 :=
  Host.reduce IntOp.andi (cmpf .olt (Host.absf x) (broadcastInDim s ![] hb (constant S_ .f32 0x7F800000#32)))
    (constantI S_ 1 1#1) hr Facts.h_S_

open Cert.Pre_finite_inputs in
/-- The test "0 < d at every row", as the precondition spells it. -/
def allPos (d : FVec Ideal S131072x1 .f32) : IVec S_ 1 :=
  Host.reduce IntOp.andi (cmpf .ogt d (broadcastInDim S131072x1 ![] Facts.bcast_S_S131072x1 (constant S_ .f32 0x00000000#32)))
    (constantI S_ 1 1#1) Facts.reducesTo_S131072x1_S_d0_1 Facts.h_S_

open Cert.Pre_finite_inputs in
/-- Where the test holds, every entry is a real. -/
theorem real_of_allFinite {s : Shape} {axes : List (Fin s.rank)} (hb : S_.BroadcastsInDim s (![] : Fin 0 → Fin s.rank))
    (hr : s.ReducesTo axes S_) (x : FVec Ideal s .f32) (j : S_.Idx) (h : allFinite hb hr x j = 1#1) (i : s.Idx) :
    ∃ r : ℝ, x i = (r : EReal) :=
  real_of_abs_lt (x i) (Host.reduce_andi_all _ _ hr Facts.h_S_ j h i)

theorem ofBool_eq_one (b : Bool) : BitVec.ofBool b = 1#1 ↔ b = true := by cases b <;> decide

open Cert.Pre_finite_inputs in
/-- Where the test holds, every row's value is above zero. -/
theorem pos_of_allPos (d : FVec Ideal S131072x1 .f32) (j : S_.Idx) (h : allPos d j = 1#1) (i : S131072x1.Idx) :
    (0 : EReal) < d i := by
  have e := Host.reduce_andi_all _ _ Facts.reducesTo_S131072x1_S_d0_1 Facts.h_S_ j h i
  change FloatOps.cmpf (F := Ideal) (φ := .f32) .ogt (d i) (FloatOps.ofBits (F := Ideal) .f32 0x00000000#32) = 1#1 at e
  rw [Ideal.cmpf_def, Ideal.ofBits_def, Ideal.ofBits_zero_f32] at e
  unfold Ideal.cmp at e
  exact of_decide_eq_true ((ofBool_eq_one _).1 e)

open Cert.Pre_finite_inputs in
set_option maxRecDepth 8192 in
/-- The precondition is the conjunction of the five tests; the fifth is of the reference's own row mean
    (the same operations on the same arrays, by unfolding the names on both sides). -/
theorem fn_eq (x0 : FVec Ideal S131072x256 .f32) (x1 x2 : FVec Ideal S256 .f32) (x3 : FVec Ideal S512x256 .f32) :
    fn (F := Ideal) x0 x1 x2 x3
      = andi (andi (andi (andi (allFinite Facts.bcast_S_S131072x256 Facts.reducesTo_S131072x256_S_d0_1 x0)
                               (allFinite Facts.bcast_S_S256 Facts.reducesTo_S256_S_d0 x1))
                         (allFinite Facts.bcast_S_S256 Facts.reducesTo_S256_S_d0 x2))
                   (allFinite Facts.bcast_S_S512x256 Facts.reducesTo_S512x256_S_d0_1 x3))
             (allPos (Cert.ReferenceIdeal.Read.val_main_v42 (F := Ideal) x0 x1 x2 x3)) := by
  rfl

open Cert.Pre_finite_inputs in
/-- The precondition at one index, split into its five tests. -/
theorem tests_of_fn (x0 : FVec Ideal S131072x256 .f32) (x1 x2 : FVec Ideal S256 .f32) (x3 : FVec Ideal S512x256 .f32)
    (h : fn (F := Ideal) x0 x1 x2 x3 = (fun _ => 1#1)) :
    allFinite Facts.bcast_S_S131072x256 Facts.reducesTo_S131072x256_S_d0_1 x0 ValueIdx.ix0 = 1#1
    ∧ allFinite Facts.bcast_S_S256 Facts.reducesTo_S256_S_d0 x1 ValueIdx.ix0 = 1#1
    ∧ allFinite Facts.bcast_S_S256 Facts.reducesTo_S256_S_d0 x2 ValueIdx.ix0 = 1#1
    ∧ allFinite Facts.bcast_S_S512x256 Facts.reducesTo_S512x256_S_d0_1 x3 ValueIdx.ix0 = 1#1
    ∧ allPos (Cert.ReferenceIdeal.Read.val_main_v42 (F := Ideal) x0 x1 x2 x3) ValueIdx.ix0 = 1#1 := by
  have e := congrFun h ValueIdx.ix0
  rw [fn_eq] at e
  obtain ⟨e', h4⟩ := IntOp.andi_eq_one.1 e
  obtain ⟨e'', h3⟩ := IntOp.andi_eq_one.1 e'
  obtain ⟨e''', h2⟩ := IntOp.andi_eq_one.1 e''
  obtain ⟨h0, h1⟩ := IntOp.andi_eq_one.1 e'''
  exact ⟨h0, h1, h2, h3, h4⟩

variable (m : (ℓ : Loc Cert.KernelIdeal.nD Cert.KernelIdeal.τ Cert.KernelIdeal.sig) → Buf (Elt Ideal) ℓ)

/-- Every entry of the first argument array (the rows) is a real. -/
theorem finite_arg0 (h : Cert.Pre_KernelIdeal m) (c : Dev Cert.KernelIdeal.nD) :
    ∀ i, ∃ r : ℝ, m ((c.tc : Thread Cert.KernelIdeal.nD Cert.KernelIdeal.τ).loc Cert.KernelIdeal.main_arg0) i = (r : EReal) :=
  real_of_allFinite _ _ _ _ (tests_of_fn _ _ _ _ (h c)).1

/-- Every entry of the second argument array (the normalisation's weight) is a real. -/
theorem finite_arg1 (h : Cert.Pre_KernelIdeal m) (c : Dev Cert.KernelIdeal.nD) :
    ∀ i, ∃ r : ℝ, m ((c.tc : Thread Cert.KernelIdeal.nD Cert.KernelIdeal.τ).loc Cert.KernelIdeal.main_arg1) i = (r : EReal) :=
  real_of_allFinite _ _ _ _ (tests_of_fn _ _ _ _ (h c)).2.1

/-- Every entry of the third argument array (the normalisation's bias) is a real. -/
theorem finite_arg2 (h : Cert.Pre_KernelIdeal m) (c : Dev Cert.KernelIdeal.nD) :
    ∀ i, ∃ r : ℝ, m ((c.tc : Thread Cert.KernelIdeal.nD Cert.KernelIdeal.τ).loc Cert.KernelIdeal.main_arg2) i = (r : EReal) :=
  real_of_allFinite _ _ _ _ (tests_of_fn _ _ _ _ (h c)).2.2.1

/-- Every entry of the fourth argument array (the centres) is a real. -/
theorem finite_arg3 (h : Cert.Pre_KernelIdeal m) (c : Dev Cert.KernelIdeal.nD) :
    ∀ i, ∃ r : ℝ, m ((c.tc : Thread Cert.KernelIdeal.nD Cert.KernelIdeal.τ).loc Cert.KernelIdeal.main_arg3) i = (r : EReal) :=
  real_of_allFinite _ _ _ _ (tests_of_fn _ _ _ _ (h c)).2.2.2.1

/-- The reference's row mean of distances is above zero at every row. -/
theorem mean_pos (h : Cert.Pre_KernelIdeal m) (c : Dev Cert.KernelIdeal.nD) :
    ∀ i : Cert.ReferenceIdeal.S131072x1.Idx, (0 : EReal) < Cert.ReferenceIdeal.Read.val_main_v42 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) i :=
  pos_of_allPos _ _ (tests_of_fn _ _ _ _ (h c)).2.2.2.2

/-- What the precondition gives: the four argument arrays hold reals, and the reference's row mean of
    distances is above zero at every row. -/
theorem of_pre (h : Cert.Pre_KernelIdeal m) (c : Dev Cert.KernelIdeal.nD) :
    (∀ i, ∃ r : ℝ, m ((c.tc : Thread Cert.KernelIdeal.nD Cert.KernelIdeal.τ).loc Cert.KernelIdeal.main_arg0) i = (r : EReal))
    ∧ (∀ i, ∃ r : ℝ, m ((c.tc : Thread Cert.KernelIdeal.nD Cert.KernelIdeal.τ).loc Cert.KernelIdeal.main_arg1) i = (r : EReal))
    ∧ (∀ i, ∃ r : ℝ, m ((c.tc : Thread Cert.KernelIdeal.nD Cert.KernelIdeal.τ).loc Cert.KernelIdeal.main_arg2) i = (r : EReal))
    ∧ (∀ i, ∃ r : ℝ, m ((c.tc : Thread Cert.KernelIdeal.nD Cert.KernelIdeal.τ).loc Cert.KernelIdeal.main_arg3) i = (r : EReal))
    ∧ (∀ i : Cert.ReferenceIdeal.S131072x1.Idx, (0 : EReal) < Cert.ReferenceIdeal.Read.val_main_v42 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3)) i) :=
  ⟨finite_arg0 m h c, finite_arg1 m h c, finite_arg2 m h c, finite_arg3 m h c, mean_pos m h c⟩

end Cert.SoftAssign.PreDecode

end
-- ==== Proof.Law.lean ====
/-
  The two spellings of the specification agree on real inputs whose mean distance is positive.

  First the normalised row and its distances to the centres.

  When the row, the affine parameters and the centres are real numbers, every quantity of the
  specification up to the distances is a real number: the mean and the variance are finite sums times
  1/256, the variance is a mean of squares and so not negative, the divisor sqrt var + eps is a positive
  real (the epsilon is positive), and the quotient by it is a product with its reciprocal. The expansion
  (sum a^2 + sum c^2) - 2 sum a c is then the real number sum (a - c)^2, which is not negative: clamping
  it at zero changes nothing, and its square root is a real number.

  Then the soft assignment of a real row of distances d with mean m > 0. A quotient by a nonzero real is the
  product with its reciprocal, and products of real numbers associate, so -32 * (d c / m) and
  (-32 * d c) * (1 * (1 / m)) are the same real number. The row's maximum, folded from minus infinity over a
  nonempty index set, is one of these real numbers, and taking the maximum with minus infinity once more does
  not change it. So each shifted exponent is real, each exponential a positive real, and the row's sum a
  positive real s; hence e / s = e * (1 / s) = e * (1 * (1 / s)) for every entry e.
-/
import proofs.«178753_j32066225832561_2_alg».proof.Proof.Spec
import proofs.«178753_j32066225832561_2_alg».proof.Proof.Consts

namespace Cert.SoftAssign

open Idealize.ShloMosaic

/-- A finite sum of real numbers, taken in the extended reals, is the real sum. -/
theorem coe_sum {n : Nat} (f : Fin n → ℝ) : (∑ k, (f k : EReal)) = ((∑ k, f k : ℝ) : EReal) := by
  induction (Finset.univ : Finset (Fin n)) using Finset.induction_on with
  | empty => simp
  | insert a s ha ih => rw [Finset.sum_insert ha, Finset.sum_insert ha, ih, EReal.coe_add]

/-- A row of real numbers is the coercion of a real row. -/
theorem IsRealRow.eq_coe {n : Nat} {f : Fin n → EReal} (h : IsRealRow f) :
    ∃ fr : Fin n → ℝ, f = fun k => (fr k : EReal) := by
  choose fr hfr using h
  exact ⟨fr, funext hfr⟩

variable {x w b : Fin 256 → EReal} {cc : Fin 512 → Fin 256 → EReal}

/-- The mean of a real row is real. -/
theorem mean_real (hx : IsRealRow x) : ∃ m : ℝ, mean x = (m : EReal) := by
  obtain ⟨xr, rfl⟩ := hx.eq_coe
  exact ⟨(∑ k, xr k) * (1 / 256), by
    rw [mean, coe_sum, c256_eq, Ideal.div_coe (by norm_num), ← EReal.coe_mul]⟩

/-- The centred row is real. -/
theorem diff_real (hx : IsRealRow x) : IsRealRow (diff x) := by
  obtain ⟨m, hm⟩ := mean_real hx
  intro k
  obtain ⟨r, hr⟩ := hx k
  exact ⟨r - m, by rw [diff, hm, hr, ← EReal.coe_sub]⟩

/-- The variance of a real row is a real number that is not negative: a sum of squares over 256. -/
theorem var_real (hx : IsRealRow x) : ∃ v : ℝ, 0 ≤ v ∧ var x = (v : EReal) := by
  obtain ⟨dr, hdr⟩ := (diff_real hx).eq_coe
  refine ⟨(∑ k, dr k * dr k) * (1 / 256), ?_, ?_⟩
  · exact mul_nonneg (Finset.sum_nonneg fun k _ => mul_self_nonneg _) (by norm_num)
  · rw [var, hdr]
    simp only [← EReal.coe_mul]
    rw [coe_sum, c256_eq, Ideal.div_coe (by norm_num), ← EReal.coe_mul]

/-- The divisor of the normalisation is a positive real: a square root plus the positive epsilon. -/
theorem den_real (hx : IsRealRow x) : ∃ dn : ℝ, 0 < dn ∧ den x = (dn : EReal) := by
  obtain ⟨v, hv0, hv⟩ := var_real hx
  obtain ⟨e, he, hce⟩ := cEps_pos
  refine ⟨Real.sqrt v + e, add_pos_of_nonneg_of_pos (Real.sqrt_nonneg v) he, ?_⟩
  rw [den, hv, Ideal.sqrt_coe, if_neg (not_lt.mpr hv0), hce, ← EReal.coe_add]

/-- The normalised row is real. -/
theorem xn_real (hx : IsRealRow x) (hw : IsRealRow w) (hb : IsRealRow b) : IsRealRow (xn x w b) := by
  obtain ⟨dn, hdn0, hdn⟩ := den_real hx
  intro k
  obtain ⟨dk, hdk⟩ := diff_real hx k
  obtain ⟨wk, hwk⟩ := hw k
  obtain ⟨bk, hbk⟩ := hb k
  exact ⟨dk * (1 / dn) * wk + bk, by
    rw [xn, hdn, Ideal.div_coe hdn0.ne', hdk, hwk, hbk, ← EReal.coe_mul, ← EReal.coe_mul, ← EReal.coe_add]⟩

/-- The expansion of the square is the sum of the squared differences, so it is a real number that is
    not negative. -/
theorem d2_nonneg (hx : IsRealRow x) (hw : IsRealRow w) (hb : IsRealRow b) (hcc : ∀ c, IsRealRow (cc c))
    (c : Fin 512) : ∃ r : ℝ, 0 ≤ r ∧ d2 x w b cc c = (r : EReal) := by
  obtain ⟨a, ha⟩ := (xn_real hx hw hb).eq_coe
  obtain ⟨q, hq⟩ := (hcc c).eq_coe
  have hsq : ∑ k, (a k - q k) ^ 2 = (∑ k, a k * a k + ∑ k, q k * q k) - 2 * ∑ k, a k * q k := by
    rw [Finset.mul_sum, ← Finset.sum_add_distrib, ← Finset.sum_sub_distrib]
    exact Finset.sum_congr rfl fun k _ => by ring
  refine ⟨∑ k, (a k - q k) ^ 2, Finset.sum_nonneg fun k _ => sq_nonneg _, ?_⟩
  rw [hsq, d2, xsq, csq, dot, ha, hq]
  simp only [← EReal.coe_mul]
  rw [coe_sum, coe_sum, coe_sum, c2_eq, ← EReal.coe_add, ← EReal.coe_mul, ← EReal.coe_sub]

/-- Clamping the expansion at zero changes nothing. -/
theorem distK_eq_distR (hx : IsRealRow x) (hw : IsRealRow w) (hb : IsRealRow b) (hcc : ∀ c, IsRealRow (cc c)) :
    distK x w b cc = distR x w b cc := by
  funext c
  obtain ⟨r, hr0, hr⟩ := d2_nonneg hx hw hb hcc c
  rw [distK, distR, hr, max_eq_left (by exact_mod_cast hr0)]

/-- The distances are real. -/
theorem distR_real (hx : IsRealRow x) (hw : IsRealRow w) (hb : IsRealRow b) (hcc : ∀ c, IsRealRow (cc c)) :
    IsRealRow (distR x w b cc) := by
  intro c
  obtain ⟨r, hr0, hr⟩ := d2_nonneg hx hw hb hcc c
  exact ⟨Real.sqrt r, by rw [distR, hr, Ideal.sqrt_coe, if_neg (not_lt.mpr hr0)]⟩

/-! ### The soft assignment -/

/-- The maximum of a row of real numbers, folded from minus infinity over a nonempty index set, is one of
    the row's entries, hence real. -/
theorem rowmax_real {l : Fin 512 → EReal} (hl : IsRealRow l) : ∃ M : ℝ, rowmax l = (M : EReal) := by
  obtain ⟨i, -, hi⟩ := Finset.exists_mem_eq_sup (Finset.univ : Finset (Fin 512))
    ⟨⟨0, by norm_num⟩, Finset.mem_univ _⟩ l
  obtain ⟨r, hr⟩ := hl i
  exact ⟨r, by rw [← hr, ← hi]; rfl⟩

variable {d : Fin 512 → EReal}

/-- The mean of a real row of distances is real. -/
theorem dmean_real (hd : IsRealRow d) : ∃ m : ℝ, dmean d = (m : EReal) := by
  obtain ⟨dr, rfl⟩ := hd.eq_coe
  exact ⟨(∑ c, dr c) * (1 / 512), by
    rw [dmean, coe_sum, c512_eq, Ideal.div_coe (by norm_num), ← EReal.coe_mul]⟩

/-- With a nonzero real mean, the quotient taken first and the product with the reciprocal are the same
    real number: -32 * (d / m) = (-32 * d) * (1 * (1 / m)). -/
theorem logitK_eq_logitR (hd : IsRealRow d) (hpos : 0 < dmean d) :
    logitK d = logitR d ∧ IsRealRow (logitR d) := by
  obtain ⟨m, hm⟩ := dmean_real hd
  have hm0 : m ≠ 0 := by
    rw [hm] at hpos
    exact (EReal.coe_pos.mp hpos).ne'
  have hR : ∀ c, ∃ r : ℝ, logitR d c = (r : EReal) ∧ logitK d c = (r : EReal) := by
    intro c
    obtain ⟨dc, hdc⟩ := hd c
    refine ⟨-32 * (dc * (1 / m)), ?_, ?_⟩
    · rw [logitR, hm, Ideal.div_coe hm0, hdc, cM32_eq, ← EReal.coe_mul, ← EReal.coe_mul]
    · rw [logitK, hm, Ideal.div_coe hm0, hdc, cM32_eq, c1_eq, ← EReal.coe_mul, ← EReal.coe_mul,
        ← EReal.coe_mul]
      congr 1
      ring
  refine ⟨funext fun c => ?_, fun c => ?_⟩
  · obtain ⟨r, h1, h2⟩ := hR c
    rw [h1, h2]
  · obtain ⟨r, h1, -⟩ := hR c
    exact ⟨r, h1⟩

/-- The shifted exponentials agree, and their sum is a positive real: each exponent is a real number
    (the maximum is one of the real entries), so each exponential is a positive real. -/
theorem expK_eq_expR (hd : IsRealRow d) (hpos : 0 < dmean d) :
    expK d = expR d ∧ ∃ s : ℝ, 0 < s ∧ (∑ c, expR d c) = (s : EReal) := by
  obtain ⟨hKR, hl⟩ := logitK_eq_logitR hd hpos
  have hE : expK d = expR d := by
    funext c
    rw [expK, expR, hKR, max_bot_left]
  refine ⟨hE, ?_⟩
  obtain ⟨M, hM⟩ := rowmax_real hl
  obtain ⟨lr, hlr⟩ := hl.eq_coe
  have hexp : ∀ c, expR d c = ((Real.exp (lr c - M) : ℝ) : EReal) := by
    intro c
    rw [expR, max_bot_left, hM, hlr, ← EReal.coe_sub, Ideal.exp_coe]
  refine ⟨∑ c, Real.exp (lr c - M), ?_, ?_⟩
  · exact Finset.sum_pos (fun c _ => Real.exp_pos _) ⟨⟨0, by norm_num⟩, Finset.mem_univ _⟩
  · rw [← coe_sum]
    exact Finset.sum_congr rfl fun c _ => hexp c

/-- The two spellings of the soft assignment agree on a real row of distances whose mean is positive. -/
theorem assignK_eq_assignR {d : Fin 512 → EReal} (hd : IsRealRow d) (hpos : 0 < dmean d) :
    assignK d = assignR d := by
  obtain ⟨hE, s, hs0, hs⟩ := expK_eq_expR hd hpos
  funext c
  rw [assignK, assignR, hE, hs, Ideal.div_coe hs0.ne', Ideal.div_coe hs0.ne', c1_eq, EReal.coe_one, one_mul]

variable {x w b : Fin 256 → EReal} {cc : Fin 512 → Fin 256 → EReal}

/-- The law of the certificate: on real inputs with a positive mean distance, the soft assignment
    computed from the clamped distances by products with reciprocals is the one computed from the
    unclamped distances by quotients. -/
theorem assign_law (hx : IsRealRow x) (hw : IsRealRow w) (hb : IsRealRow b) (hcc : ∀ c, IsRealRow (cc c))
    (hpos : 0 < dmean (distR x w b cc)) :
    assignK (distK x w b cc) = assignR (distR x w b cc) := by
  rw [distK_eq_distR hx hw hb hcc]
  exact assignK_eq_assignR (distR_real hx hw hb hcc) hpos

end Cert.SoftAssign
-- ==== Proof.Bridge.lean ====
/-
  The two spellings of the three results agree, as whole arrays.

  When every entry of the four argument arrays is a real number, the clamp at zero before the square root changes
  nothing (the expansion of a squared distance is a sum of squares over the reals), so the two distance arrays
  are equal. When moreover every row's mean distance is positive, multiplying by the reciprocal of the mean, or
  of the row sum, is dividing by it, so the two assignment arrays are equal, and with them the reconstructions.
-/
import proofs.«178753_j32066225832561_2_alg».proof.Proof.Rows
import proofs.«178753_j32066225832561_2_alg».proof.Proof.Law

noncomputable section

namespace Cert.SoftAssign

open Idealize.ShloMosaic Idealize.ShloMosaic.ValueIdx

variable {X : SX.Idx → EReal} {W B : SV.Idx → EReal} {C : SC.Idx → EReal}

theorem rowX_real (hX : ∀ i, ∃ r : ℝ, X i = (r : EReal)) (p : Fin 131072) : IsRealRow (rowX X p) :=
  fun k => hX (ix2 p k)

theorem vecOf_real {W : SV.Idx → EReal} (hW : ∀ i, ∃ r : ℝ, W i = (r : EReal)) : IsRealRow (vecOf W) :=
  fun k => hW (ix1 k)

theorem centres_real (hC : ∀ i, ∃ r : ℝ, C i = (r : EReal)) (c : Fin 512) : IsRealRow (centres C c) :=
  fun k => hC (ix2 c k)

/-- The distances: the clamp is the identity on real inputs. -/
theorem distArr_law (hX : ∀ i, ∃ r : ℝ, X i = (r : EReal)) (hW : ∀ i, ∃ r : ℝ, W i = (r : EReal))
    (hB : ∀ i, ∃ r : ℝ, B i = (r : EReal)) (hC : ∀ i, ∃ r : ℝ, C i = (r : EReal)) :
    distArrR X W B C = distArrK X W B C := by
  funext i
  unfold distArrR distArrK
  rw [distK_eq_distR (rowX_real hX (i 0)) (vecOf_real hW) (vecOf_real hB) (centres_real hC)]

/-- The soft assignment: quotient and reciprocal spellings agree where the mean distance is positive. -/
theorem assignArr_law (hX : ∀ i, ∃ r : ℝ, X i = (r : EReal)) (hW : ∀ i, ∃ r : ℝ, W i = (r : EReal))
    (hB : ∀ i, ∃ r : ℝ, B i = (r : EReal)) (hC : ∀ i, ∃ r : ℝ, C i = (r : EReal))
    (hpos : ∀ p : Fin 131072, 0 < dmeanArr X W B C p) :
    assignArrR X W B C = assignArrK X W B C := by
  funext i
  unfold assignArrR assignArrK
  rw [assign_law (rowX_real hX (i 0)) (vecOf_real hW) (vecOf_real hB) (centres_real hC) (hpos (i 0))]

/-- The reconstruction follows the assignment. -/
theorem recArr_law (hX : ∀ i, ∃ r : ℝ, X i = (r : EReal)) (hW : ∀ i, ∃ r : ℝ, W i = (r : EReal))
    (hB : ∀ i, ∃ r : ℝ, B i = (r : EReal)) (hC : ∀ i, ∃ r : ℝ, C i = (r : EReal))
    (hpos : ∀ p : Fin 131072, 0 < dmeanArr X W B C p) :
    recArrR X W B C = recArrK X W B C := by
  funext i
  unfold recArrR recArrK
  rw [assign_law (rowX_real hX (i 0)) (vecOf_real hW) (vecOf_real hB) (centres_real hC) (hpos (i 0))]

end Cert.SoftAssign

end
-- ==== Proof.lean ====
/-
  The certificate: a kernel that normalises rows, takes their distances to 512 centres, soft-assigns them and
  reconstructs, against its plain reference, on the extended reals.

  Both programs normalise each of the 131072 rows of the input (mean and biased variance over the 256 entries; the
  divisor is the standard deviation plus an epsilon), take the squared distance of the normalised row to each centre
  by the expansion |a|^2 + |c|^2 - 2 a.c, take its square root, scale by -32 over the row's mean distance, apply a
  softmax along the row, and multiply the result by the centres. They return the distances, the soft assignment and
  the reconstruction.

  The kernel differs from the reference in four spellings, none of which changes a value where the inputs are real
  numbers and no row's mean distance vanishes:
  * it clamps the expansion at zero before the square root: over the reals the expansion is the sum of the squared
    differences, which is never negative;
  * it multiplies by the reciprocal of the mean distance where the reference divides by it: the same, for a nonzero
    real divisor, by associativity of the product;
  * it multiplies by the reciprocal of the softmax's row sum where the reference divides: the row sum of
    exponentials of real numbers is a positive real;
  * the reference takes one more maximum with minus infinity, the identity.
  Where a row's mean distance is zero (the normalised row equal to every centre) both programs divide by zero and
  the conventions of the extended reals give them different values; the precondition excludes exactly that.

  The proof sets three things side by side. The kernel's run leaves, in each output array, row by row, the one-row
  specification in the kernel's spelling: each grid point handles 2048 consecutive rows, its body's value is read
  index by index, and the blocks tile the arrays. The reference's run leaves the one-row specification in the
  reference's spelling, read operation by operation. And the precondition gives that every input entry is a real
  number and that every row's mean distance, as the reference computes it, is positive; under these the two
  spellings agree.
-/
import proofs.«178753_j32066225832561_2_alg».proof.Defs
import proofs.«178753_j32066225832561_2_alg».proof.Proof.Gen.Kernel
import proofs.«178753_j32066225832561_2_alg».proof.Proof.Gen.Kernel.Skeleton
import proofs.«178753_j32066225832561_2_alg».proof.Proof.Gen.Kernel.Launch
import proofs.«178753_j32066225832561_2_alg».proof.Proof.Gen.Kernel.Points
import proofs.«178753_j32066225832561_2_alg».proof.Proof.Gen.Kernel.Frame
import proofs.«178753_j32066225832561_2_alg».proof.Proof.Gen.KernelIdeal
import proofs.«178753_j32066225832561_2_alg».proof.Proof.Gen.KernelIdeal.Skeleton
import proofs.«178753_j32066225832561_2_alg».proof.Proof.Gen.KernelIdeal.Launch
import proofs.«178753_j32066225832561_2_alg».proof.Proof.Gen.KernelIdeal.Points
import proofs.«178753_j32066225832561_2_alg».proof.Proof.Gen.KernelIdeal.Frame
import proofs.«178753_j32066225832561_2_alg».proof.Proof.Gen.ReferenceIdeal
import proofs.«178753_j32066225832561_2_alg».proof.Proof.Gen.Pre_finite_inputs
import proofs.«178753_j32066225832561_2_alg».proof.Proof.Gen.KernelIdeal.Value
import proofs.«178753_j32066225832561_2_alg».proof.Proof.Gen.ReferenceIdeal.Run
import proofs.«178753_j32066225832561_2_alg».proof.Proof.Gen.ReferenceIdeal.Read
import proofs.«178753_j32066225832561_2_alg».proof.Proof.KernelPayOut
import proofs.«178753_j32066225832561_2_alg».proof.Proof.KernelBlocks
import proofs.«178753_j32066225832561_2_alg».proof.Proof.RefValue
import proofs.«178753_j32066225832561_2_alg».proof.Proof.PreDecode
import proofs.«178753_j32066225832561_2_alg».proof.Proof.Bridge
import Idealize.ShloMosaic.Adequacy
import Idealize.ShloMosaic.Init

noncomputable section

namespace Cert.Proof

open Idealize.ShloMosaic Idealize.ShloMosaic.TcCoe Idealize.SL.Sem Cert.SoftAssign

/-- The kernel as printed runs and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference's run, its results dropped. -/
theorem frame_referenceIdeal : Cert.frame_ReferenceIdeal := fun m ρ _ =>
  (θ_run Cert.ReferenceIdeal.defs _ _).mono (fun _ h c => (h c).2.2.2)
    (Cert.ReferenceIdeal.Value.run (F := Ideal) m ρ)

/-- Nothing was rewritten when the kernel was read on the extended reals. -/
theorem preserves : Cert.preserves_Kernel_KernelIdeal := trivial

/-- From memories agreeing on the arguments, of which the precondition holds, both programs end with the same
    three arrays: the kernel's spelling of the row specification (its run, block by block) equals the reference's
    (its run, operation by operation) because every input entry is real and every row's mean distance positive. -/
theorem algebraic : Cert.algebraic_KernelIdeal_ReferenceIdeal := by
  intro m ρ m' ρ' hpre hagree
  refine ⟨_, _, _, Cert.SoftAssign.Kernel.kernel_run m Pay.out6_spec Pay.out7_spec Pay.out8_spec ρ, ?_⟩
  refine (θ_run Cert.ReferenceIdeal.defs _ _).mono (fun _ h c => ?_)
    (Cert.ReferenceIdeal.Value.run (F := Ideal) m' ρ')
  obtain ⟨f0, f1, f2, f3, hpos⟩ := PreDecode.of_pre m hpre c
  obtain ⟨h0, h1, h2, ha⟩ := h c
  obtain ⟨e0, e1, e2, e3⟩ := hagree c
  have hp : ∀ p : Fin 131072, 0 < dmeanArr
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) p := fun p => by
    rw [← Ref.v42_at]
    exact hpos _
  refine ⟨h0.trans ?_, h1.trans ?_, h2.trans ?_, ha⟩
  · rw [Cert.ReferenceIdeal.Read.val_main_v38_eq, e0, e1, e2, e3, Ref.v38_eq]
    exact distArr_law f0 f1 f2 f3
  · rw [Cert.ReferenceIdeal.Read.val_main_v57_eq, e0, e1, e2, e3, Ref.v57_eq]
    exact assignArr_law f0 f1 f2 f3 hp
  · rw [Cert.ReferenceIdeal.Read.val_main_v58_eq, e0, e1, e2, e3, Ref.v58_eq]
    exact recArr_law f0 f1 f2 f3 hp

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
